-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S1650000x128 : Shape := ⟨2, ![1650000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 68
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000x128, .f32⟩
  | .hbm, ⟨44, _⟩ => ⟨S_, .f32⟩
  | .hbm, ⟨45, _⟩ => ⟨S50000x128, .f32⟩
  | .hbm, ⟨46, _⟩ => ⟨S1650000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S1x64, .f32⟩
  | .hbm, ⟨67, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S1650000x128 : Shape := ⟨2, ![1650000, 128]⟩
abbrev S50000x64 : Shape := ⟨2, ![50000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S1650000, .i32⟩
  | .hbm, ⟨57, _⟩ => ⟨S1650000, .i1⟩
  | .hbm, ⟨58, _⟩ => ⟨S_, .i32⟩
  | .hbm, ⟨59, _⟩ => ⟨S1650000, .i32⟩
  | .hbm, ⟨60, _⟩ => ⟨S1650000, .i32⟩
  | .hbm, ⟨61, _⟩ => ⟨S1650000, .i32⟩
  | .hbm, ⟨62, _⟩ => ⟨S1650000x1, .i32⟩
  | .hbm, ⟨63, _⟩ => ⟨S1650000x128, .f32⟩
  | .hbm, ⟨64, _⟩ => ⟨S1650000x1, .f32⟩
  | .hbm, ⟨65, _⟩ => ⟨S1650000x128, .f32⟩
  | .hbm, ⟨66, _⟩ => ⟨S1650000x128, .f32⟩
  | .hbm, ⟨67, _⟩ => ⟨S_, .f32⟩
  | .hbm, ⟨68, _⟩ => ⟨S50000x128, .f32⟩
  | .hbm, ⟨69, _⟩ => ⟨S1650000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000x128, .f32⟩
  | .hbm, ⟨87, _⟩ => ⟨S1650000x1, .f32⟩
  | .hbm, ⟨88, _⟩ => ⟨S1650000x128, .f32⟩
  | .hbm, ⟨89, _⟩ => ⟨S1650000x128, .f32⟩
  | .hbm, ⟨90, _⟩ => ⟨S_, .f32⟩
  | .hbm, ⟨91, _⟩ => ⟨S50000x128, .f32⟩
  | .hbm, ⟨92, _⟩ => ⟨S1650000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its result named.

  @main is twelve segments: stretches of host operations and six kernel regions. The buffer contents at each segment
  boundary are a fold from the launch memory (the generated `Gen.W0 … Gen.W12`), and every weakly fair execution ends
  with every unscoped buffer at the last boundary's contents. The frame claim reads only the argument buffers off that
  final state; here the result buffer is read off it as well: it ends at `Gen.W12 m ρ c` of the result reference.
-/
import proofs.«133147_j27951647163110_2_alg».proof.Proof.Gen.KernelIdeal.Frame

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v45) = W12 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v45 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KRun

end
-- ==== Proof.KernelCarry.lean ====
/-
  Which buffers keep their contents across which segment of the idealized kernel program's @main.

  The contents at the twelve segment boundaries are a fold from the launch memory. A kernel region rewrites only its
  output array (an input window's array is read, not written; any other buffer is bypassed), and a stretch of host
  operations rewrites only the buffers its operations write. So an argument array, the source and destination words, and
  the column d reach every region and stretch that reads them with the contents they had when the first region was
  entered. One equation per buffer and boundary, each by the segment's own keeping rule.
-/
import proofs.«133147_j27951647163110_2_alg».proof.Proof.Gen.KernelIdeal.Frame

noncomputable section

namespace Cert.KernelIdeal.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## The argument arrays at the first region's entry are the launch contents -/

theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W3_arg2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W3_arg4 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W3_arg5 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W3_arg6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem W3_arg7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem W3_arg8 : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
theorem W3_arg9 : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-! ## Kept across the later segments -/

theorem keep4_arg4 : W4 m ρ c (Proc.devRef .tc main_arg4) = W3 m ρ c (Proc.devRef .tc main_arg4) :=
  W4_of_ne m ρ c main_arg4 (by decide)
theorem keep4_arg5 : W4 m ρ c (Proc.devRef .tc main_arg5) = W3 m ρ c (Proc.devRef .tc main_arg5) :=
  W4_of_ne m ρ c main_arg5 (by decide)
theorem keep5_arg5 : W5 m ρ c (Proc.devRef .tc main_arg5) = W4 m ρ c (Proc.devRef .tc main_arg5) :=
  W5_of_ne m ρ c main_arg5 (by decide)
theorem keep4_arg6 : W4 m ρ c (Proc.devRef .tc main_arg6) = W3 m ρ c (Proc.devRef .tc main_arg6) :=
  W4_of_ne m ρ c main_arg6 (by decide)
theorem keep5_arg6 : W5 m ρ c (Proc.devRef .tc main_arg6) = W4 m ρ c (Proc.devRef .tc main_arg6) :=
  W5_of_ne m ρ c main_arg6 (by decide)
theorem keep6_arg6 : W6 m ρ c (Proc.devRef .tc main_arg6) = W5 m ρ c (Proc.devRef .tc main_arg6) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_arg6 : W7 m ρ c (Proc.devRef .tc main_arg6) = W6 m ρ c (Proc.devRef .tc main_arg6) :=
  W7_of_ne m ρ c main_arg6 (by decide)
theorem keep4_arg7 : W4 m ρ c (Proc.devRef .tc main_arg7) = W3 m ρ c (Proc.devRef .tc main_arg7) :=
  W4_of_ne m ρ c main_arg7 (by decide)
theorem keep5_arg7 : W5 m ρ c (Proc.devRef .tc main_arg7) = W4 m ρ c (Proc.devRef .tc main_arg7) :=
  W5_of_ne m ρ c main_arg7 (by decide)
theorem keep6_arg7 : W6 m ρ c (Proc.devRef .tc main_arg7) = W5 m ρ c (Proc.devRef .tc main_arg7) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_arg7 : W7 m ρ c (Proc.devRef .tc main_arg7) = W6 m ρ c (Proc.devRef .tc main_arg7) :=
  W7_of_ne m ρ c main_arg7 (by decide)
theorem keep8_arg7 : W8 m ρ c (Proc.devRef .tc main_arg7) = W7 m ρ c (Proc.devRef .tc main_arg7) :=
  W8_of_ne m ρ c main_arg7 (by decide)
theorem keep4_arg8 : W4 m ρ c (Proc.devRef .tc main_arg8) = W3 m ρ c (Proc.devRef .tc main_arg8) :=
  W4_of_ne m ρ c main_arg8 (by decide)
theorem keep5_arg8 : W5 m ρ c (Proc.devRef .tc main_arg8) = W4 m ρ c (Proc.devRef .tc main_arg8) :=
  W5_of_ne m ρ c main_arg8 (by decide)
theorem keep6_arg8 : W6 m ρ c (Proc.devRef .tc main_arg8) = W5 m ρ c (Proc.devRef .tc main_arg8) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_arg8 : W7 m ρ c (Proc.devRef .tc main_arg8) = W6 m ρ c (Proc.devRef .tc main_arg8) :=
  W7_of_ne m ρ c main_arg8 (by decide)
theorem keep8_arg8 : W8 m ρ c (Proc.devRef .tc main_arg8) = W7 m ρ c (Proc.devRef .tc main_arg8) :=
  W8_of_ne m ρ c main_arg8 (by decide)
theorem keep9_arg8 : W9 m ρ c (Proc.devRef .tc main_arg8) = W8 m ρ c (Proc.devRef .tc main_arg8) :=
  StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep10_arg8 : W10 m ρ c (Proc.devRef .tc main_arg8) = W9 m ρ c (Proc.devRef .tc main_arg8) :=
  W10_of_ne m ρ c main_arg8 (by decide)
theorem keep11_arg8 : W11 m ρ c (Proc.devRef .tc main_arg8) = W10 m ρ c (Proc.devRef .tc main_arg8) :=
  StableHlo.after_of_forall_not_mem _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep4_arg9 : W4 m ρ c (Proc.devRef .tc main_arg9) = W3 m ρ c (Proc.devRef .tc main_arg9) :=
  W4_of_ne m ρ c main_arg9 (by decide)
theorem keep5_arg9 : W5 m ρ c (Proc.devRef .tc main_arg9) = W4 m ρ c (Proc.devRef .tc main_arg9) :=
  W5_of_ne m ρ c main_arg9 (by decide)
theorem keep6_arg9 : W6 m ρ c (Proc.devRef .tc main_arg9) = W5 m ρ c (Proc.devRef .tc main_arg9) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_arg9 : W7 m ρ c (Proc.devRef .tc main_arg9) = W6 m ρ c (Proc.devRef .tc main_arg9) :=
  W7_of_ne m ρ c main_arg9 (by decide)
theorem keep8_arg9 : W8 m ρ c (Proc.devRef .tc main_arg9) = W7 m ρ c (Proc.devRef .tc main_arg9) :=
  W8_of_ne m ρ c main_arg9 (by decide)
theorem keep9_arg9 : W9 m ρ c (Proc.devRef .tc main_arg9) = W8 m ρ c (Proc.devRef .tc main_arg9) :=
  StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep10_arg9 : W10 m ρ c (Proc.devRef .tc main_arg9) = W9 m ρ c (Proc.devRef .tc main_arg9) :=
  W10_of_ne m ρ c main_arg9 (by decide)
theorem keep4_v15 : W4 m ρ c (Proc.devRef .tc main_v15) = W3 m ρ c (Proc.devRef .tc main_v15) :=
  W4_of_ne m ρ c main_v15 (by decide)
theorem keep5_v15 : W5 m ρ c (Proc.devRef .tc main_v15) = W4 m ρ c (Proc.devRef .tc main_v15) :=
  (W5_arr m ρ c 2).trans (((dat1 (V4 m ρ) c).arrAt_in 2 rfl _).trans (A_eq1 (V4 m ρ) c 2))
theorem keep6_v15 : W6 m ρ c (Proc.devRef .tc main_v15) = W5 m ρ c (Proc.devRef .tc main_v15) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_v15 : W7 m ρ c (Proc.devRef .tc main_v15) = W6 m ρ c (Proc.devRef .tc main_v15) :=
  (W7_arr m ρ c 1).trans (((dat2 (V6 m ρ) c).arrAt_in 1 rfl _).trans (A_eq2 (V6 m ρ) c 1))
theorem keep8_v15 : W8 m ρ c (Proc.devRef .tc main_v15) = W7 m ρ c (Proc.devRef .tc main_v15) :=
  (W8_arr m ρ c 2).trans (((dat3 (V7 m ρ) c).arrAt_in 2 rfl _).trans (A_eq3 (V7 m ρ) c 2))
theorem keep9_v15 : W9 m ρ c (Proc.devRef .tc main_v15) = W8 m ρ c (Proc.devRef .tc main_v15) :=
  StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep4_v3 : W4 m ρ c (Proc.devRef .tc main_v3) = W3 m ρ c (Proc.devRef .tc main_v3) :=
  W4_of_ne m ρ c main_v3 (by decide)
theorem keep5_v3 : W5 m ρ c (Proc.devRef .tc main_v3) = W4 m ρ c (Proc.devRef .tc main_v3) :=
  W5_of_ne m ρ c main_v3 (by decide)
theorem keep6_v3 : W6 m ρ c (Proc.devRef .tc main_v3) = W5 m ρ c (Proc.devRef .tc main_v3) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_v3 : W7 m ρ c (Proc.devRef .tc main_v3) = W6 m ρ c (Proc.devRef .tc main_v3) :=
  W7_of_ne m ρ c main_v3 (by decide)
theorem keep8_v3 : W8 m ρ c (Proc.devRef .tc main_v3) = W7 m ρ c (Proc.devRef .tc main_v3) :=
  W8_of_ne m ρ c main_v3 (by decide)
theorem keep4_v6 : W4 m ρ c (Proc.devRef .tc main_v6) = W3 m ρ c (Proc.devRef .tc main_v6) :=
  W4_of_ne m ρ c main_v6 (by decide)
theorem keep5_v6 : W5 m ρ c (Proc.devRef .tc main_v6) = W4 m ρ c (Proc.devRef .tc main_v6) :=
  W5_of_ne m ρ c main_v6 (by decide)
theorem keep6_v6 : W6 m ρ c (Proc.devRef .tc main_v6) = W5 m ρ c (Proc.devRef .tc main_v6) :=
  StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep7_v6 : W7 m ρ c (Proc.devRef .tc main_v6) = W6 m ρ c (Proc.devRef .tc main_v6) :=
  W7_of_ne m ρ c main_v6 (by decide)
theorem keep8_v6 : W8 m ρ c (Proc.devRef .tc main_v6) = W7 m ρ c (Proc.devRef .tc main_v6) :=
  W8_of_ne m ρ c main_v6 (by decide)
theorem keep11_v43 : W11 m ρ c (Proc.devRef .tc main_v43) = W10 m ρ c (Proc.devRef .tc main_v43) :=
  StableHlo.after_of_forall_not_mem _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Chain

end
-- ==== Proof.LibDegreeNorm.lean ====
/-
  The index columns, the degrees and the normalisation of a message list, as the host operations compute them.

  From a vector of source words and a vector of destination words (E messages): an index column [E, 1]; a word made
  non-negative the way array indexing does it (a negative word has the number of nodes added); the degree of a node, the
  number of messages whose destination word names it, as a sum of ones added into zeros; d(n), the inverse square root of
  the degree where the degree is positive and 0 elsewhere; and the weight of message e, d(source of e) · d(destination of
  e), both read through a gather at the wrapped words. Definitions only; the dimension records and side conditions are
  parameters, so that each printed program instantiates them at its own.
-/
import Idealize.ShloMosaic.PureOps
import Idealize.ShloMosaic.PureOps.Ideal
import Idealize.ShloMosaic.Lib.ValueIdx

noncomputable section

namespace Cert.GraphLinear

open Idealize.ShloMosaic Idealize.ShloMosaic.ValueIdx

section Defs
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (dg : GatherDims ⟨1, ![N]⟩ ⟨2, ![E, 1]⟩ ⟨1, ![E]⟩)

/-- A vector of words as a column [E, 1]. -/
def idxCol (v : IVec ⟨1, ![E]⟩ 32) : IVec ⟨2, ![E, 1]⟩ 32 :=
  broadcastInDim ⟨2, ![E, 1]⟩ ![0] hcol v

/-- Array indexing's wrap: a negative word has `nWord` added, any other word is kept. -/
def wrapIdx (nWord : BitVec 32) (v : IVec ⟨1, ![E]⟩ 32) : IVec ⟨1, ![E]⟩ 32 :=
  select (cmpi .slt v (broadcastInDim ⟨1, ![E]⟩ ![] hbE (constantI ⟨0, ![]⟩ 32 0#32)))
    (addi v (broadcastInDim ⟨1, ![E]⟩ ![] hbE (constantI ⟨0, ![]⟩ 32 nWord))) v

/-- The degree of every node: ones, one per message, added into zeros at the destination words. -/
def degree (dst : IVec ⟨1, ![E]⟩ 32) : FVec Ideal ⟨1, ![N]⟩ .f32 :=
  Host.scatterAdd ds (broadcastInDim ⟨1, ![N]⟩ ![] hbN (constant (F := Ideal) ⟨0, ![]⟩ .f32 0x00000000#32)) (idxCol hcol dst)
    (broadcastInDim ⟨1, ![E]⟩ ![] hbE (constant (F := Ideal) ⟨0, ![]⟩ .f32 0x3F800000#32))

/-- d(n): the inverse square root of the degree where it is positive, 0 elsewhere. -/
def dinv (dst : IVec ⟨1, ![E]⟩ 32) : FVec Ideal ⟨1, ![N]⟩ .f32 :=
  select (cmpf .ogt (degree hbN hbE hcol ds dst) (broadcastInDim ⟨1, ![N]⟩ ![] hbN (constant (F := Ideal) ⟨0, ![]⟩ .f32 0x00000000#32)))
    (Host.rsqrt (degree hbN hbE hcol ds dst))
    (broadcastInDim ⟨1, ![N]⟩ ![] hbN (constant (F := Ideal) ⟨0, ![]⟩ .f32 0x00000000#32))

/-- The weight of every message: d at its wrapped source word times d at its wrapped destination word. -/
def norm (nWord : BitVec 32) (src dst : IVec ⟨1, ![E]⟩ 32) : FVec Ideal ⟨1, ![E]⟩ .f32 :=
  mulf (Host.gather dg (dinv hbN hbE hcol ds dst) (idxCol hcol (wrapIdx hbE nWord src)))
    (Host.gather dg (dinv hbN hbE hcol ds dst) (idxCol hcol (wrapIdx hbE nWord dst)))

end Defs

end Cert.GraphLinear

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.KernelHost.lean ====
/-
  What the host operations of the idealized kernel program's @main compute, stretch by stretch.

  Before the first region: the source words and destination words of the 1,650,000 messages (a row of the edge list
  followed by 0 … 49999, every node's message to itself), the degree of every node, and d — the inverse square root of
  the degree where it is positive, 0 elsewhere — laid out as a column; and the encoder's bias as a one-row matrix.
  Between the regions of a layer: the rows of the scaled product gathered at the wrapped source words and added into
  zeros at the destination words, and the layer's bias as a one-row matrix. Before the last region: the decoder's bias as
  a one-row matrix. Each is read off the operations' fold from an arbitrary starting valuation. The first stretch is read
  in three pieces so that each join of two word vectors reads its two operands from a valuation at which they are
  already named.
-/
import proofs.«133147_j27951647163110_2_alg».proof.Proof.Gen.KernelIdeal.Frame
import proofs.«133147_j27951647163110_2_alg».proof.Proof.LibDegreeNorm
import proofs.«133147_j27951647163110_2_alg».proof.Proof.LibTypedRef

noncomputable section

namespace Cert.KernelIdeal.Chain

open Idealize.ShloMosaic Idealize.ShloMosaic.TcCoe Idealize.SL.Sem Idealize.ShloMosaic.StableHlo
open Cert.KernelIdeal Cert.KernelIdeal.Gen Cert.GraphLinear

/-- The source words: row 0 of the edge list followed by 0 … 49999 (every node's message to itself). -/
def srcWords (ei : IVec S2x1600000 32) : IVec S1650000 32 :=
  concatenate S1650000 0 [⟨S1600000, shapeCast _ (extractStridedSlice S1x1600000 ![0, 0] ei slices_S2x1600000_S1x1600000_0_0) shapeCasts_S1x1600000_S1600000⟩, ⟨S50000, iotaInDim S50000 32 0⟩] concatenates_S1600000_S50000_S1650000_d0
/-- The destination words: row 1 of the edge list followed by 0 … 49999. -/
def dstWords (ei : IVec S2x1600000 32) : IVec S1650000 32 :=
  concatenate S1650000 0 [⟨S1600000, shapeCast _ (extractStridedSlice S1x1600000 ![1, 0] ei slices_S2x1600000_S1x1600000_1_0) shapeCasts_S1x1600000_S1600000⟩, ⟨S50000, iotaInDim S50000 32 0⟩] concatenates_S1600000_S50000_S1650000_d0

/-- d of the destination words, at the program's own records. -/
abbrev dinvOf (dst : IVec S1650000 32) : FVec Ideal S50000 .f32 :=
  dinv bcast_S_S50000 bcast_S_S1650000 bcast_S1650000_S1650000x1_0 scatter_S50000_S1650000x1_S1650000_n_0_0_1 dst
/-- The destination words as an index column. -/
abbrev dstCol (dst : IVec S1650000 32) : IVec S1650000x1 32 := idxCol bcast_S1650000_S1650000x1_0 dst
/-- The wrapped source words as an index column. -/
abbrev srcCol (src : IVec S1650000 32) : IVec S1650000x1 32 :=
  idxCol bcast_S1650000_S1650000x1_0 (wrapIdx bcast_S_S1650000 50000#32 src)
/-- Rows gathered at the wrapped source words and added into zeros at the destination words. -/
abbrev gatherAdd (src dst : IVec S1650000 32) (t : FVec Ideal S50000x128 .f32) : FVec Ideal S50000x128 .f32 :=
  Host.scatterAdd scatter_S50000x128_S1650000x1_S1650000x128_1_0_0_1
    (broadcastInDim S50000x128 ![] bcast_S_S50000x128 (constant (F := Ideal) S_ .f32 0x00000000#32)) (dstCol dst)
    (Host.gather gather_S50000x128_S1650000x1_S1650000x128_1_0_n_n_0_1_1128 t (srcCol src))

/-! ## The first stretch, in three pieces -/

abbrev p1 : List (HloOp τ sig (Elt Ideal)) := List.take 3 (hostOps0 (F := Ideal))
abbrev p2 : List (HloOp τ sig (Elt Ideal)) := List.take 3 (List.drop 3 (hostOps0 (F := Ideal)))
abbrev p3 : List (HloOp τ sig (Elt Ideal)) := List.drop 6 (hostOps0 (F := Ideal))

theorem after_hostOps0 (W : Valuation τ sig (Elt Ideal)) :
    StableHlo.after (hostOps0 (F := Ideal)) W = StableHlo.after p3 (StableHlo.after p2 (StableHlo.after p1 W)) := rfl

section Pieces
variable (W : Valuation τ sig (Elt Ideal))

theorem p1_v2 : StableHlo.after p1 W (Proc.devRef .tc main_v2)
    = shapeCast _ (extractStridedSlice S1x1600000 ![0, 0] (W (Proc.devRef .tc main_arg1)) slices_S2x1600000_S1x1600000_0_0) shapeCasts_S1x1600000_S1600000 := by
  simp only [p1, hostOps0, List.take_succ_cons, List.take_zero]
  after_results_simp
  rfl
theorem p1_v0 : StableHlo.after p1 W (Proc.devRef .tc main_v0) = iotaInDim S50000 32 0 := by
  simp only [p1, hostOps0, List.take_succ_cons, List.take_zero]
  after_results_simp
theorem p1_arg1 : StableHlo.after p1 W (Proc.devRef .tc main_arg1) = W (Proc.devRef .tc main_arg1) := by
  simp only [p1, hostOps0, List.take_succ_cons, List.take_zero]
  after_results_simp

theorem p2_v3 : StableHlo.after p2 W (Proc.devRef .tc main_v3)
    = concatenate S1650000 0 [⟨S1600000, W (Proc.devRef .tc main_v2)⟩, ⟨S50000, W (Proc.devRef .tc main_v0)⟩] concatenates_S1600000_S50000_S1650000_d0 := by
  simp only [p2, hostOps0, List.drop_succ_cons, List.drop_zero, List.take_succ_cons, List.take_zero]
  after_results_simp
theorem p2_v5 : StableHlo.after p2 W (Proc.devRef .tc main_v5)
    = shapeCast _ (extractStridedSlice S1x1600000 ![1, 0] (W (Proc.devRef .tc main_arg1)) slices_S2x1600000_S1x1600000_1_0) shapeCasts_S1x1600000_S1600000 := by
  simp only [p2, hostOps0, List.drop_succ_cons, List.drop_zero, List.take_succ_cons, List.take_zero]
  after_results_simp
  rfl
theorem p2_v0 : StableHlo.after p2 W (Proc.devRef .tc main_v0) = W (Proc.devRef .tc main_v0) := by
  simp only [p2, hostOps0, List.drop_succ_cons, List.drop_zero, List.take_succ_cons, List.take_zero]
  after_results_simp

/-- The degree as the last piece computes it, from the two halves of the destination words. -/
abbrev degOf (dst : IVec S1650000 32) : FVec Ideal S50000 .f32 :=
  degree bcast_S_S50000 bcast_S_S1650000 bcast_S1650000_S1650000x1_0 scatter_S50000_S1650000x1_S1650000_n_0_0_1 dst
abbrev joined : IVec S1650000 32 :=
  concatenate S1650000 0 [⟨S1600000, W (Proc.devRef .tc main_v5)⟩, ⟨S50000, W (Proc.devRef .tc main_v0)⟩] concatenates_S1600000_S50000_S1650000_d0

theorem p3_v3 : StableHlo.after p3 W (Proc.devRef .tc main_v3) = W (Proc.devRef .tc main_v3) := by
  simp only [p3, hostOps0, List.drop_succ_cons, List.drop_zero]
  after_results_simp
theorem p3_v6 : StableHlo.after p3 W (Proc.devRef .tc main_v6) = joined W := by
  simp only [p3, hostOps0, List.drop_succ_cons, List.drop_zero]
  after_results_simp
theorem p3_v12 : StableHlo.after p3 W (Proc.devRef .tc main_v12)
    = cmpf .ogt (degOf (joined W)) (broadcastInDim S50000 ![] bcast_S_S50000 (constant (F := Ideal) S_ .f32 0x00000000#32)) := by
  simp only [p3, hostOps0, List.drop_succ_cons, List.drop_zero]
  after_results_simp
  rfl
theorem p3_v13 : StableHlo.after p3 W (Proc.devRef .tc main_v13) = Host.rsqrt (degOf (joined W)) := by
  simp only [p3, hostOps0, List.drop_succ_cons, List.drop_zero]
  after_results_simp
  rfl
theorem p3_cst2 : StableHlo.after p3 W (Proc.devRef .tc main_cst_2) = constant (F := Ideal) S_ .f32 0x00000000#32 := by
  simp only [p3, hostOps0, List.drop_succ_cons, List.drop_zero]
  after_results_simp

end Pieces

/-! ## The first stretch whole -/

section Stretches
variable (W : Valuation τ sig (Elt Ideal))

theorem host0_v3 : StableHlo.after (hostOps0 (F := Ideal)) W (Proc.devRef .tc main_v3) = srcWords (W (Proc.devRef .tc main_arg1)) := by
  rw [after_hostOps0, p3_v3, p2_v3, p1_v2, p1_v0]; rfl
theorem joined_eq : joined (StableHlo.after p2 (StableHlo.after p1 W)) = dstWords (W (Proc.devRef .tc main_arg1)) := by
  unfold joined; rw [p2_v5, p2_v0, p1_arg1, p1_v0]; rfl
theorem host0_v6 : StableHlo.after (hostOps0 (F := Ideal)) W (Proc.devRef .tc main_v6) = dstWords (W (Proc.devRef .tc main_arg1)) := by
  rw [after_hostOps0, p3_v6, joined_eq]
theorem host0_v12 : StableHlo.after (hostOps0 (F := Ideal)) W (Proc.devRef .tc main_v12)
    = cmpf .ogt (degOf (dstWords (W (Proc.devRef .tc main_arg1)))) (broadcastInDim S50000 ![] bcast_S_S50000 (constant (F := Ideal) S_ .f32 0x00000000#32)) := by
  rw [after_hostOps0, p3_v12, joined_eq]
theorem host0_v13 : StableHlo.after (hostOps0 (F := Ideal)) W (Proc.devRef .tc main_v13)
    = Host.rsqrt (degOf (dstWords (W (Proc.devRef .tc main_arg1)))) := by
  rw [after_hostOps0, p3_v13, joined_eq]
theorem host0_cst2 : StableHlo.after (hostOps0 (F := Ideal)) W (Proc.devRef .tc main_cst_2) = constant (F := Ideal) S_ .f32 0x00000000#32 := by
  rw [after_hostOps0, p3_cst2]

/-! ## The select of d, the two reshapes, and the later stretches -/

theorem host01_v14 : StableHlo.after (hostOps0_1 (F := Ideal)) W (Proc.devRef .tc main_v14)
    = select (W (Proc.devRef .tc main_v12)) (W (Proc.devRef .tc main_v13))
        (broadcastInDim S50000 ![] bcast_S_S50000 (W (Proc.devRef .tc main_cst_2))) := by
  after_results_simp
  simp only [Cert.LibTypedRef.ofBuf_toBuf]
  rfl

theorem host02_v15 : StableHlo.after (hostOps0_2 (F := Ideal)) W (Proc.devRef .tc main_v15)
    = shapeCast S50000x1 (W (Proc.devRef .tc main_v14)) shapeCasts_S50000_S50000x1 := by
  after_results_simp
  rfl
theorem host02_v16 : StableHlo.after (hostOps0_2 (F := Ideal)) W (Proc.devRef .tc main_v16)
    = shapeCast S1x128 (W (Proc.devRef .tc main_arg3)) shapeCasts_S128_S1x128 := by
  after_results_simp
  rfl

theorem host2_v28 : StableHlo.after (hostOps2 (F := Ideal)) W (Proc.devRef .tc main_v28)
    = gatherAdd (W (Proc.devRef .tc main_v3)) (W (Proc.devRef .tc main_v6)) (W (Proc.devRef .tc main_v18)) := by
  after_results_simp
  rfl
theorem host2_v29 : StableHlo.after (hostOps2 (F := Ideal)) W (Proc.devRef .tc main_v29)
    = shapeCast S1x128 (W (Proc.devRef .tc main_arg5)) shapeCasts_S128_S1x128 := by
  after_results_simp
  rfl
theorem host4_v41 : StableHlo.after (hostOps4 (F := Ideal)) W (Proc.devRef .tc main_v41)
    = gatherAdd (W (Proc.devRef .tc main_v3)) (W (Proc.devRef .tc main_v6)) (W (Proc.devRef .tc main_v31)) := by
  after_results_simp
  rfl
theorem host4_v42 : StableHlo.after (hostOps4 (F := Ideal)) W (Proc.devRef .tc main_v42)
    = shapeCast S1x128 (W (Proc.devRef .tc main_arg7)) shapeCasts_S128_S1x128 := by
  after_results_simp
  rfl
theorem host5_v44 : StableHlo.after (hostOps5 (F := Ideal)) W (Proc.devRef .tc main_v44)
    = shapeCast S1x64 (W (Proc.devRef .tc main_arg9)) shapeCasts_S64_S1x64 := by
  after_results_simp
  rfl

end Stretches

end Cert.KernelIdeal.Chain

end
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«133147_j27951647163110_2_alg».proof.Proof.LibScatterSet
import proofs.«133147_j27951647163110_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibGatherRows.lean ====
/-
  A row gather read at an index. What `x[idx]` of a table `x : [N, C]` at an integer vector lowers to: a gather along
  axis 0 with whole rows as slices (offset axis 1, axis 0 collapsed, slice sizes `[1, C]`) over the indices laid out as a
  column `[R, 1]`. Result entry `(f, k)` is the table's entry `(row f, k)`, where `row f` is the start index at `f` read as
  a signed integer and clamped into `[0, N − 1]`. So the gather selects rows by a function of the indices alone and
  keeps columns: it commutes with anything done to the table row by row. Nothing here depends on a program.
-/
import Idealize.ShloMosaic.Lib.ValueIdx

namespace Cert.KernelIdeal.Hand

open Idealize.ShloMosaic Idealize.ShloMosaic.ValueIdx

section Rows
variable {α : Type}

/-- The dimension numbers of a row gather from a table `[N, C]` at start indices `[R, 1]` into `[R, C]`; their conditions
    `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row the gather reads for result row `f`: the start index there, signed, clamped into `[0, N − 1]`. -/
def rowOf {N R w : Nat} (hN : 0 < N) (idx : IVec ⟨2, ![R, 1]⟩ w) (f : Fin R) : Fin N :=
  ⟨min (idx (ix2 f (0 : Fin 1))).toInt.toNat (N - 1), by omega⟩

/-- THE ROW GATHER READ AT `(f, k)`: the table at `(rowOf f, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (f : Fin R) (k : Fin C) :
    Host.gather (rowDims N R C wf) x idx (ix2 f k) = x (ix2 (rowOf hN idx f) k) := by
  unfold Host.gather
  congr 1
  funext a
  refine Fin.ext ?_
  match a with
  | ⟨0, _⟩ =>
    show (rowDims N R C wf).start (ix2 f k) idx 0 + (rowDims N R C wf).batchCoord (ix2 f k) 0
      + (rowDims N R C wf).offCoord (ix2 f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 f k) ⟨List.idxOf (0 : Fin 2) (rowDims N R C wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl
  | ⟨1, _⟩ =>
    show (rowDims N R C wf).start (ix2 f k) idx 1 + (rowDims N R C wf).batchCoord (ix2 f k) 1
      + (rowDims N R C wf).offCoord (ix2 f k) 1 = _
    rw [GatherDims.batchCoord_eq_zero _ _ _ List.not_mem_nil]
    unfold GatherDims.start
    have h10 : (1 : Fin 2) ≠ 0 := by decide
    rw [dif_neg (show (1 : Fin 2) ∉ (rowDims N R C wf).startIndexMap from
      fun h => absurd (List.mem_singleton.mp h) h10)]
    have hk : (1 : Fin 2) ∈ (rowDims N R C wf).sKept :=
      (GatherDims.mem_sKept _ _).mpr ⟨fun h => absurd (List.mem_singleton.mp h) h10, List.not_mem_nil⟩
    unfold GatherDims.offCoord
    rw [dif_pos hk]
    simp only [Nat.zero_add]
    rfl

end Rows

end Cert.KernelIdeal.Hand
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.LibGraphLayers.lean ====
/-
  A linear graph network, entry by entry on the extended reals.

  Nodes 0 … N − 1 carry feature rows; messages e = 0 … E − 1 each name a source row (an index word read signed and clamped
  into the table, as a row gather reads it) and a destination node (an index word read signed; a word naming no node
  lands nowhere). One convolution layer multiplies the rows by a weight matrix, lets every node collect the rows of the
  messages that land on it, each scaled by the normalisation d(source) · d(destination), adds a bias and takes the
  maximum with zero. The network is an affine encoder, two such layers and an affine decoder.

  Two arrangements of a layer are written down. In the first the factor d(source) is multiplied into the rows before
  they are collected and the factor d(destination) into the collected sum afterwards; in the second every collected row
  carries its whole factor. They agree whenever every d(n) is a non-negative real number: a non-negative real factor
  distributes over a finite sum of extended reals, and multiplication of extended reals is associative. No entry of
  the features, weights or biases needs to be finite.
-/
import Idealize.ShloMosaic.PureOps.Ideal
import Idealize.ShloMosaic.Lib.ValueIdx
import Mathlib.Algebra.BigOperators.Fin
import proofs.«133147_j27951647163110_2_alg».proof.Proof.LibSegmentSum
import proofs.«133147_j27951647163110_2_alg».proof.Proof.LibGatherRows
import proofs.«133147_j27951647163110_2_alg».proof.Proof.LibSoftmaxRow

noncomputable section

namespace Cert.GraphLinear

open Idealize.ShloMosaic Idealize.ShloMosaic.ValueIdx Cert.SegmentSum Cert.KernelIdeal.Hand

/-- An array [a, b] of extended reals. -/
abbrev Mat (a b : Nat) : Type := (⟨2, ![a, b]⟩ : Shape).Idx → EReal
/-- A vector [a] of extended reals. -/
abbrev Vect (a : Nat) : Type := (⟨1, ![a]⟩ : Shape).Idx → EReal
/-- A column [E, 1] of index words. -/
abbrev IdxCol (E w : Nat) : Type := IVec ⟨2, ![E, 1]⟩ w

/-! ## What one launch of each kernel computes, as a function of whole arrays -/

/-- Rows times weights plus a bias row: (x · w)(p, q) + b(0, q). -/
def affine {N K C : Nat} (x : Mat N K) (w : Mat K C) (b : Mat 1 C) : Mat N C :=
  fun i => (∑ k : Fin K, x (ix2 (i 0) k) * w (ix2 k (i 1))) + b (ix2 (0 : Fin 1) (i 1))

/-- Rows times weights, each row scaled by its entry of a column: (x · w)(p, q) · d(p, 0). -/
def scaled {N K C : Nat} (x : Mat N K) (w : Mat K C) (d : Mat N 1) : Mat N C :=
  fun i => (∑ k : Fin K, x (ix2 (i 0) k) * w (ix2 k (i 1))) * d (ix2 (i 0) (0 : Fin 1))

/-- Each row scaled by its entry of a column, plus a bias row, maximum with zero: max (s(p, q) · d(p, 0) + b(0, q)) 0. -/
def biasRelu {N C : Nat} (s : Mat N C) (d : Mat N 1) (b : Mat 1 C) : Mat N C :=
  fun i => max (s i * d (ix2 (i 0) (0 : Fin 1)) + b (ix2 (0 : Fin 1) (i 1))) (0 : EReal)

theorem affine_apply {N K C : Nat} (x : Mat N K) (w : Mat K C) (b : Mat 1 C) (p : Fin N) (q : Fin C) :
    affine x w b (ix2 p q) = (∑ k : Fin K, x (ix2 p k) * w (ix2 k q)) + b (ix2 (0 : Fin 1) q) := rfl
theorem scaled_apply {N K C : Nat} (x : Mat N K) (w : Mat K C) (d : Mat N 1) (p : Fin N) (q : Fin C) :
    scaled x w d (ix2 p q) = (∑ k : Fin K, x (ix2 p k) * w (ix2 k q)) * d (ix2 p (0 : Fin 1)) := rfl
theorem biasRelu_apply {N C : Nat} (s : Mat N C) (d : Mat N 1) (b : Mat 1 C) (p : Fin N) (q : Fin C) :
    biasRelu s d b (ix2 p q) = max (s (ix2 p q) * d (ix2 p (0 : Fin 1)) + b (ix2 (0 : Fin 1) q)) (0 : EReal) := rfl

/-! ## Collecting rows along the messages -/

section Messages
variable {N E C w w' : Nat} (hN : 0 < N) (dst : IdxCol E w) (src : IdxCol E w')

/-- Every node collects the rows of `t` named by the sources of the messages that land on it. -/
def collect (t : Mat N C) : Mat N C :=
  fun i => ∑ e ∈ edgesAt dst (i 0), t (ix2 (rowOf hN src e) (i 1))

/-- The same with each message's row scaled by the message's own weight. -/
def collectWeighted (t : Mat N C) (nrm : Vect E) : Mat N C :=
  fun i => ∑ e ∈ edgesAt dst (i 0), t (ix2 (rowOf hN src e) (i 1)) * nrm (ix1 e)

theorem collect_apply (t : Mat N C) (n : Fin N) (k : Fin C) :
    collect hN dst src t (ix2 n k) = ∑ e ∈ edgesAt dst n, t (ix2 (rowOf hN src e) k) := rfl
theorem collectWeighted_apply (t : Mat N C) (nrm : Vect E) (n : Fin N) (k : Fin C) :
    collectWeighted hN dst src t nrm (ix2 n k) = ∑ e ∈ edgesAt dst n, t (ix2 (rowOf hN src e) k) * nrm (ix1 e) := rfl

/-! ## The two arrangements of a layer and of the network -/

/-- Plain rows times weights. -/
def product {K : Nat} (x : Mat N K) (wt : Mat K C) : Mat N C :=
  fun i => ∑ k : Fin K, x (ix2 (i 0) k) * wt (ix2 k (i 1))
/-- Rows times weights plus a bias vector. -/
def affineVec {K : Nat} (x : Mat N K) (wt : Mat K C) (b : Vect C) : Mat N C :=
  fun i => (∑ k : Fin K, x (ix2 (i 0) k) * wt (ix2 k (i 1))) + b (ix1 (i 1))
/-- Plus a bias vector, maximum with zero. -/
def addRelu (s : Mat N C) (b : Vect C) : Mat N C :=
  fun i => max (s i + b (ix1 (i 1))) (0 : EReal)

/-- A layer with the normalisation split: d(source) before the rows are collected, d(destination) after. -/
def layerSplit {K : Nat} (d : Mat N 1) (h : Mat N K) (wt : Mat K C) (b : Mat 1 C) : Mat N C :=
  biasRelu (collect hN dst src (scaled h wt d)) d b
/-- A layer with every collected row carrying its whole normalisation weight. -/
def layerWhole {K : Nat} (nrm : Vect E) (h : Mat N K) (wt : Mat K C) (b : Vect C) : Mat N C :=
  addRelu (collectWeighted hN dst src (product h wt) nrm) b

/-- The network in the split arrangement: encoder, two layers, decoder; the biases as one-row matrices. -/
def netSplit {K0 H O : Nat} (d : Mat N 1) (x : Mat N K0) (We : Mat K0 H) (be : Mat 1 H) (W1 : Mat H H) (b1 : Mat 1 H)
    (W2 : Mat H H) (b2 : Mat 1 H) (Wo : Mat H O) (bo : Mat 1 O) : Mat N O :=
  affine (layerSplit hN dst src d (layerSplit hN dst src d (affine x We be) W1 b1) W2 b2) Wo bo
/-- The network in the whole-weight arrangement; the biases as vectors. -/
def netWhole {K0 H O : Nat} (nrm : Vect E) (x : Mat N K0) (We : Mat K0 H) (be : Vect H) (W1 : Mat H H) (b1 : Vect H)
    (W2 : Mat H H) (b2 : Vect H) (Wo : Mat H O) (bo : Vect O) : Mat N O :=
  affineVec (layerWhole hN dst src nrm (layerWhole hN dst src nrm (affineVec x We be) W1 b1) W2 b2) Wo bo

/-! ## The law between them -/

/-- One layer: if every d(n) is a non-negative real and every message landing on n weighs d(its source) · d(n), the two
    arrangements agree on any rows. -/
theorem layerSplit_eq_layerWhole {K : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (h : Mat N K) (wt : Mat K C) (b : Mat 1 C) (bv : Vect C) (hb : ∀ q : Fin C, b (ix2 (0 : Fin 1) q) = bv (ix1 q)) :
    layerSplit hN dst src d h wt b = layerWhole hN dst src nrm h wt bv := by
  funext i
  obtain ⟨n, k, rfl⟩ : ∃ (n : Fin N) (k : Fin C), i = ix2 n k := ⟨i 0, i 1, eq_ix2 i⟩
  obtain ⟨r, hr, hdn⟩ := hd n
  show max ((∑ e ∈ edgesAt dst n, (∑ j : Fin K, h (ix2 (rowOf hN src e) j) * wt (ix2 j k))
        * d (ix2 (rowOf hN src e) (0 : Fin 1))) * d (ix2 n (0 : Fin 1)) + b (ix2 (0 : Fin 1) k)) (0 : EReal)
      = max ((∑ e ∈ edgesAt dst n, (∑ j : Fin K, h (ix2 (rowOf hN src e) j) * wt (ix2 j k)) * nrm (ix1 e))
        + bv (ix1 k)) (0 : EReal)
  rw [hb k, hdn, ← Cert.Attn.sum_mul_coe _ _ r hr]
  refine congrArg (fun z => max (z + bv (ix1 k)) (0 : EReal)) (Finset.sum_congr rfl fun e he => ?_)
  rw [hn n e he, hdn, mul_assoc]

/-- The network: the two arrangements agree. -/
theorem netSplit_eq_netWhole {K0 H O : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (x : Mat N K0) (We : Mat K0 H) (W1 W2 : Mat H H) (Wo : Mat H O)
    (be b1 b2 : Mat 1 H) (bo : Mat 1 O) (bev b1v b2v : Vect H) (bov : Vect O)
    (hbe : ∀ q : Fin H, be (ix2 (0 : Fin 1) q) = bev (ix1 q)) (hb1 : ∀ q : Fin H, b1 (ix2 (0 : Fin 1) q) = b1v (ix1 q))
    (hb2 : ∀ q : Fin H, b2 (ix2 (0 : Fin 1) q) = b2v (ix1 q)) (hbo : ∀ q : Fin O, bo (ix2 (0 : Fin 1) q) = bov (ix1 q)) :
    netSplit hN dst src d x We be W1 b1 W2 b2 Wo bo = netWhole hN dst src nrm x We bev W1 b1v W2 b2v Wo bov := by
  have henc : affine x We be = affineVec x We bev := by
    funext i
    obtain ⟨n, k, rfl⟩ : ∃ (n : Fin N) (k : Fin H), i = ix2 n k := ⟨i 0, i 1, eq_ix2 i⟩
    show _ + be (ix2 (0 : Fin 1) k) = _ + bev (ix1 k); rw [hbe]
  unfold netSplit netWhole
  rw [henc, layerSplit_eq_layerWhole hN dst src d nrm hd hn _ W1 b1 b1v hb1,
    layerSplit_eq_layerWhole hN dst src d nrm hd hn _ W2 b2 b2v hb2]
  funext i
  obtain ⟨n, k, rfl⟩ : ∃ (n : Fin N) (k : Fin O), i = ix2 n k := ⟨i 0, i 1, eq_ix2 i⟩
  show _ + bo (ix2 (0 : Fin 1) k) = _ + bov (ix1 k); rw [hbo]

end Messages

end Cert.GraphLinear

end
-- ==== Proof.LibCollect.lean ====
/-
  Rows gathered along the messages and added into zeros, read as one collecting sum.

  A row gather of a table at the source column followed by a segment sum into an array of zeros at the destination column
  leaves at (n, k) the sum, over the messages that land on n, of the table's entry at (the message's source row, k): the
  gather keeps columns, the segment sum adds the updates of column k that land on row n, and the zero it starts from adds
  nothing. No finiteness is needed.
-/
import Idealize.ShloMosaic.Lib.IdealHost
import proofs.«133147_j27951647163110_2_alg».proof.Proof.LibGraphLayers

noncomputable section

namespace Cert.GraphLinear

open Idealize.ShloMosaic Idealize.ShloMosaic.ValueIdx Cert.SegmentSum Cert.KernelIdeal.Hand

theorem scatter_gather_eq_collect {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb : (⟨0, ![]⟩ : Shape).BroadcastsInDim ⟨2, ![N, C]⟩ ![])
    (dstc : IVec ⟨2, ![E, 1]⟩ w) (srcc : IVec ⟨2, ![E, 1]⟩ w') (t : FVec Ideal ⟨2, ![N, C]⟩ .f32) :
    Host.scatterAdd ds (broadcastInDim ⟨2, ![N, C]⟩ ![] hb (constant (F := Ideal) ⟨0, ![]⟩ .f32 0x00000000#32)) dstc
        (Host.gather dg t srcc)
      = collect hN dstc srcc t := by
  subst hdg
  funext i
  obtain ⟨n, k, rfl⟩ : ∃ (n : Fin N) (k : Fin C), i = ix2 n k := ⟨i 0, i 1, eq_ix2 i⟩
  show Ideal.hostScatterAdd ds (broadcastInDim ⟨2, ![N, C]⟩ ![] hb (constant (F := Ideal) ⟨0, ![]⟩ .f32 0x00000000#32)) dstc
      (fun j => Host.gather (rowDims N E C wf) t srcc j) (ix2 n k) = _
  rw [scatterAdd_rows_apply ds h1 h2 h3 h4, collect_apply, broadcastInDim_scalar_apply, constant_apply,
    Ideal.ofBits_zero_f32, zero_add]
  exact Finset.sum_congr rfl fun e _ => gather_rows_apply hN wf t srcc e k

end Cert.GraphLinear

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«133147_j27951647163110_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.Region0.lean ====
/-
  The first launch of the program (an affine encoder), read as one function of whole arrays.

  The launch walks ten grid points; point t holds rows 5000·t … 5000·t + 4999 of the input rows, the whole 128 × 128
  weight matrix and the whole one-row bias, and writes rows 5000·t … 5000·t + 4999 of the output. What it writes at row p
  and column q of its block is Σ_k x(p, k) · w(k, q) + b(0, q) on the extended reals (a change of float format is the
  identity there, and the product accumulates into zero). Row p of block t is row 5000·t + p of the array, so every point
  writes its own block of ONE whole-array function, the affine map of the rows, the weights and the bias; the ten blocks
  cover the 50000 rows (row r lies in block r / 5000), hence the output array after the launch is that affine map.
-/
import proofs.«133147_j27951647163110_2_alg».proof.Proof.Gen.KernelIdeal.Frame
import proofs.«133147_j27951647163110_2_alg».proof.Proof.LibGraphLayers
import proofs.«133147_j27951647163110_2_alg».proof.Proof.LibAffineAt
import Idealize.ShloMosaic.Lib.Pipeline.Value
import Idealize.ShloMosaic.Lib.ValueIdx
import Idealize.ShloMosaic.PureOps.Ideal.Laws
noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear

variable (V : (c : Dev nD) → (b : Ref sig .tc) → Buf (Elt Ideal) ((c : Thread nD τ).loc b)) (c : Dev nD)

/-- The body's payload at row p and column q of its block: the block's row times the weights' column, plus the bias. -/
private theorem pay0_at (x0 : FVec Ideal S5000x128 .f32) (x1 : FVec Ideal S128x128 .f32) (x2 : FVec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  refine (Cert.LibAffineAt.block_at dot_S5000x128_S128x128_S5000x128_1_0_0_1_n_n rfl broadcasts_S1x128_S5000x128
    x0 x1 (shapeCast S1x128 x2 shapeCasts_S1x128_S1x128) bitsLt_bf16_f32 p q).trans ?_
  rw [shapeCast_self]

private theorem hz0 : (![0, 0] : Fin 2 → Nat) = fun _ => 0 := funext fun a => by fin_cases a <;> rfl

/-- The printed index maps over the grid: the row blocks move with the point, the weights and the bias stay. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of what a point leaves, from what its blocks read: if row p of the row block is row r of the whole rows,
    and the weights and the bias are read whole, the payload at (p, q) is the affine map at (r, q). -/
private theorem point0 (X0 : FVec Ideal S5000x128 .f32) (X1 : FVec Ideal S128x128 .f32) (X2 : FVec Ideal S1x128 .f32)
    (A : Mat 50000 128) (W : Mat 128 128) (B : Mat 1 128) (p : Fin 5000) (q : Fin 128) (r : Fin 50000)
    (h0 : ∀ k : Fin 128, X0 (ix2 p k) = A (ix2 r k)) (h1 : X1 = W) (h2 : X2 = B) :
    k0_pay1 (F := Ideal) X0 X1 X2 (ix2 p q) = affine A W B (ix2 r q) := by
  subst h1 h2
  rw [pay0_at, affine_apply]
  simp only [h0]

private theorem flushed0_eq (t : Fin cfg0.N) :
    (dat0 (F := Ideal) V c).flushed 3 t = ((cfg0.win 3).blk t).view.read (Elt Ideal)
      (affine (V c main_arg0 : Mat 50000 128) (V c main_arg2 : Mat 128 128) (V c main_v16 : Mat 1 128)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  obtain ⟨e00, e01, e10, e11, e20, e21, e30, e31⟩ := idx_facts0 t
  have hN : t.val < 10 := by have h1 := t.isLt; have h2 : cfg0.N = 10 := N_0; omega
  funext j
  have hp : (j 0).val < 5000 := (j 0).isLt
  have hq : (j 1).val < 128 := (j 1).isLt
  have e1 : (win0 3).xinj (grid0.coords t) j = ix2 (⟨(j 0).val, hp⟩ : Fin 5000) (⟨(j 1).val, hq⟩ : Fin 128) := by
    funext a
    match a with
    | ⟨0, _⟩ => rfl
    | ⟨1, _⟩ => rfl
  have e2 : ((cfg0.win 3).blk t).view.emb j
      = ix2 (⟨t.val * 5000 + (j 0).val, by omega⟩ : Fin 50000) (⟨(j 1).val, hq⟩ : Fin 128) := by
    funext a; apply Fin.ext
    match a with
    | ⟨0, _⟩ => show win0_3.index t (0 : Fin 2) * 5000 + 1 * (j 0).val = t.val * 5000 + (j 0).val; rw [e30]; omega
    | ⟨1, _⟩ => show win0_3.index t (1 : Fin 2) * 128 + 1 * (j 1).val = (j 1).val; rw [e31]; omega
  have h0 : ∀ k : Fin 128, (iblk0 V c 0 t : FVec Ideal S5000x128 .f32) (ix2 (⟨(j 0).val, hp⟩ : Fin 5000) k)
      = (V c main_arg0 : Mat 50000 128) (ix2 (⟨t.val * 5000 + (j 0).val, by omega⟩ : Fin 50000) k) := by
    intro k
    show V c main_arg0 (((cfg0.win 0).blk t).view.emb (ix2 (⟨(j 0).val, hp⟩ : Fin 5000) k)) = V c main_arg0 _
    refine congrArg _ ?_
    funext a; apply Fin.ext
    match a with
    | ⟨0, _⟩ => show win0_0.index t (0 : Fin 2) * 5000 + 1 * (j 0).val = t.val * 5000 + (j 0).val; rw [e00]; omega
    | ⟨1, _⟩ => show win0_0.index t (1 : Fin 2) * 128 + 1 * k.val = k.val; rw [e01]; omega
  have h1 : (iblk0 V c 1 t : FVec Ideal S128x128 .f32) = (V c main_arg2 : Mat 128 128) := by
    funext y
    show V c main_arg2 (((cfg0.win 1).blk t).view.emb y) = V c main_arg2 y
    refine congrArg _ ?_
    funext a; apply Fin.ext
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega
  have h2 : (iblk0 V c 2 t : FVec Ideal S1x128 .f32) = (V c main_v16 : Mat 1 128) := by
    funext y
    show V c main_v16 (((cfg0.win 2).blk t).view.emb y) = V c main_v16 y
    refine congrArg _ ?_
    funext a; apply Fin.ext
    match a with
    | ⟨0, _⟩ => show win0_2.index t (0 : Fin 2) * 1 + 1 * (y 0).val = (y 0).val; rw [e20]; omega
    | ⟨1, _⟩ => show win0_2.index t (1 : Fin 2) * 128 + 1 * (y 1).val = (y 1).val; rw [e21]; omega
  show k0_pay1 (iblk0 V c 0 t) (iblk0 V c 1 t) (iblk0 V c 2 t) ((win0 3).xinj (grid0.coords t) j)
    = affine (V c main_arg0 : Mat 50000 128) (V c main_arg2 : Mat 128 128) (V c main_v16 : Mat 1 128) (((cfg0.win 3).blk t).view.emb j)
  rw [e1, e2]
  exact point0 (iblk0 V c 0 t) (iblk0 V c 1 t) (iblk0 V c 2 t) (V c main_arg0) (V c main_arg2) (V c main_v16)
    ⟨(j 0).val, hp⟩ ⟨(j 1).val, hq⟩ ⟨t.val * 5000 + (j 0).val, by omega⟩ h0 h1 h2

/-- An index of the output array is in point t's block iff each coordinate is in the block's range on its axis. -/
private theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Row r of the output is in the block of point r / 5000: the ten row blocks cover the array. -/
private theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]
    omega

/-- The output array after the region is the affine map of the rows, the weights and the bias as the region finds them. -/
theorem region0_value :
    ((dat0 (F := Ideal) V c).arrAt 3 cfg0.N : Mat 50000 128)
      = affine (V c main_arg0 : Mat 50000 128) (V c main_arg2 : Mat 128 128) (V c main_v16 : Mat 1 128) :=
  (dat0 (F := Ideal) V c).arrAt_eq_of_cover 3
    (affine (V c main_arg0 : Mat 50000 128) (V c main_arg2 : Mat 128 128) (V c main_v16 : Mat 1 128))
    (fun t _ => flushed0_eq V c t) cover0

end Cert.KernelIdeal.RegionValues
end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.Region1.lean ====
/-
  Region 1 of the kernel program: rows times weights, each row scaled by its entry of a column, as one function of
  the whole arrays.

  The region runs over ten grid points; point t reads rows 5000·t … 5000·t + 4999 of the row array and of the column,
  the whole 128 × 128 weight matrix, and writes the same rows of the output. On one block the body multiplies the
  block of rows by the weights into a zero accumulator (the change of float format before the product is the identity
  at the extended reals) and multiplies each row by its entry of the column block, broadcast across the 128 columns.
  So the block's entry (p, q) is (Σ_k x(r, k) · w(k, q)) · d(r, 0) with r = 5000·t + p: the block at point t is the
  restriction of one whole-array function to the rows of point t. Every row r lies in the block of point r / 5000, so
  the ten blocks cover the output array, which therefore ends holding that function.
-/
import proofs.«133147_j27951647163110_2_alg».proof.Proof.Gen.KernelIdeal.Frame
import proofs.«133147_j27951647163110_2_alg».proof.Proof.LibGraphLayers
import proofs.«133147_j27951647163110_2_alg».proof.Proof.LibMatmulAt
import proofs.«133147_j27951647163110_2_alg».proof.Proof.LibKeepdims
import Idealize.ShloMosaic.Lib.Pipeline.Value
import Idealize.ShloMosaic.Lib.ValueIdx
import Idealize.ShloMosaic.PureOps.Ideal.Laws
noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear
variable (V : (c : Dev nD) → (b : Ref sig .tc) → Buf (Elt Ideal) ((c : Thread nD τ).loc b)) (c : Dev nD)

/-- The block's arithmetic at one entry: the block's row times the weight column, as an exact sum, times the row's
    entry of the column block. A cast to the same shape and a change of float format are the identity. -/
private theorem pay_at1 (x0 : FVec Ideal S5000x128 .f32) (x1 : FVec Ideal S128x128 .f32) (x2 : FVec Ideal S5000x1 .f32)
    (p : Fin 5000) (q : Fin 128) :
    k1_pay1 x0 x1 x2 (ix2 p q) = (∑ k : Fin 128, x0 (ix2 p k) * x1 (ix2 k q)) * x2 (ix2 p (0 : Fin 1)) := by
  unfold k1_pay1
  refine (mulf_apply _ _ _).trans ?_
  refine congrArg₂ (· * ·) ?_ ?_
  · refine (Cert.KernelIdeal.Hand.matmul_zero_plain_apply _ rfl none _ _ (ix2 p q)).trans ?_
    refine Finset.sum_congr rfl fun k _ => ?_
    refine congrArg₂ (· * ·) ?_ rfl
    exact congrFun (shapeCast_self x0 _) (ix2 p k)
  · refine (Cert.Lib.Keepdims.broadcastTo_a1_ab_apply _ _ p q).trans ?_
    exact congrFun (shapeCast_self x2 _) (ix2 p (0 : Fin 1))

/-- A block of 5000 rows whose row p is row r of the arrays: if the three blocks read the arrays where the block sits
    (row p of the row blocks is row r of their arrays, the weights whole), the block's arithmetic at (p, q) is the
    whole-array function at (r, q). -/
private theorem block_value1 (A : Mat 50000 128) (W : Mat 128 128) (D : Mat 50000 1)
    (x0 : FVec Ideal S5000x128 .f32) (x1 : FVec Ideal S128x128 .f32) (x2 : FVec Ideal S5000x1 .f32)
    (p : Fin 5000) (q : Fin 128) (r : Fin 50000)
    (h0 : ∀ k : Fin 128, x0 (ix2 p k) = A (ix2 r k))
    (h1 : ∀ k : Fin 128, x1 (ix2 k q) = W (ix2 k q))
    (h2 : x2 (ix2 p (0 : Fin 1)) = D (ix2 r (0 : Fin 1))) :
    k1_pay1 (F := Ideal) x0 x1 x2 (ix2 p q) = scaled A W D (ix2 r q) := by
  refine (pay_at1 x0 x1 x2 p q).trans ?_
  rw [scaled_apply, h2]
  refine congrArg (· * D (ix2 r (0 : Fin 1))) (Finset.sum_congr rfl fun k _ => ?_)
  rw [h0 k, h1 k]

/-- The printed index maps over the grid: at point t the row blocks sit at block row t, block column 0, and the weights'
    one block at (0, 0). -/
private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The zero offsets of a whole-block access, as the constant function. -/
private theorem zeros1 : (![0, 0] : Fin 2 → Nat) = fun _ => 0 := funext fun a => by fin_cases a <;> rfl

/-- What point t writes back is block t of the whole-array function: an element (p, q) of a row block at point t sits
    at row t · 5000 + p of its array, and the weights' block is the whole matrix. -/
private theorem flushed1_eq (t : Fin cfg1.N) :
    (dat1 (F := Ideal) V c).flushed 3 t = ((cfg1.win 3).blk t).view.read (Elt Ideal)
      (scaled (V c main_v17 : Mat 50000 128) (V c main_arg4 : Mat 128 128) (V c main_v15 : Mat 50000 1)) := by
  show (cfg1.win 3).cut (grid1.coords t) ((dat1 (F := Ideal) V c).after 3 t) = _
  rw [after1_3]
  unfold out1_3
  rw [View.canon_unit_zero zeros1]
  simp only [View.ld_unit_zero (S := S5000x128) zeros1, View.ld_unit_zero (S := S128x128) zeros1, View.ld_unit_zero (S := S5000x1) zeros1]
  obtain ⟨e0, e1, e2, e3, e4, e5, e6, e7⟩ := idx_facts1 t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (iblk1 V c 2 t) (ix2 p q)
    = scaled (V c main_v17 : Mat 50000 128) (V c main_arg4 : Mat 128 128) (V c main_v15 : Mat 50000 1) (((cfg1.win 3).blk t).view.emb (ix2 p q))
  have he : (((cfg1.win 3).blk t).view.emb (ix2 p q) : S50000x128.Idx) = ix2 (⟨t.val * 5000 + p.val, by omega⟩ : Fin 50000) q := by
    funext a; apply Fin.ext
    match a with
    | ⟨0, _⟩ => show win1_3.index t (0 : Fin 2) * 5000 + 1 * p.val = t.val * 5000 + p.val; rw [e6]; omega
    | ⟨1, _⟩ => show win1_3.index t (1 : Fin 2) * 128 + 1 * q.val = q.val; rw [e7]; omega
  rw [he]
  refine block_value1 (V c main_v17 : Mat 50000 128) (V c main_arg4 : Mat 128 128) (V c main_v15 : Mat 50000 1)
    (iblk1 V c 0 t) (iblk1 V c 1 t) (iblk1 V c 2 t) p q (⟨t.val * 5000 + p.val, by omega⟩ : Fin 50000)
    (fun k => ?_) (fun k => ?_) ?_
  · show (V c main_v17 : Mat 50000 128) (((cfg1.win 0).blk t).view.emb (ix2 p k)) = _
    refine congrArg (V c main_v17 : Mat 50000 128) ?_
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * k.val = k.val; rw [e1]; omega
  · show (V c main_arg4 : Mat 128 128) (((cfg1.win 1).blk t).view.emb (ix2 k q)) = _
    refine congrArg (V c main_arg4 : Mat 128 128) ?_
    funext a; apply Fin.ext
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  · show (V c main_v15 : Mat 50000 1) (((cfg1.win 2).blk t).view.emb (ix2 p (0 : Fin 1))) = _
    refine congrArg (V c main_v15 : Mat 50000 1) ?_
    funext a; apply Fin.ext
    match a with
    | ⟨0, _⟩ => show win1_2.index t (0 : Fin 2) * 5000 + 1 * p.val = t.val * 5000 + p.val; rw [e4]; omega
    | ⟨1, _⟩ => show win1_2.index t (1 : Fin 2) * 1 + 1 * 0 = 0; rw [e5]

/-- An index of the output array is in point t's block iff each coordinate is in the block's range on its axis. -/
private theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v18).slice (win1_3.rect t)).set ↔ _
  rw [View.set_slice_whole, Rect.mem_set_unit]
  exact Iff.rfl

/-- The blocks cover the output array: row r is in the block of point r / 5000. -/
private theorem cover1 (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

theorem region1_value :
    ((dat1 (F := Ideal) V c).arrAt 3 cfg1.N : Mat 50000 128)
      = scaled (V c main_v17 : Mat 50000 128) (V c main_arg4 : Mat 128 128) (V c main_v15 : Mat 50000 1) :=
  (dat1 (F := Ideal) V c).arrAt_eq_of_cover 3
    (scaled (V c main_v17 : Mat 50000 128) (V c main_arg4 : Mat 128 128) (V c main_v15 : Mat 50000 1))
    (fun t _ => flushed1_eq V c t) (cover1)

end Cert.KernelIdeal.RegionValues
end
-- ==== Proof.Region2.lean ====
/-
  Region 2 of the kernel program: a bias-and-rectifier pass over the rows. The region walks the 50000 rows in ten blocks of
  5000. At point t it reads rows 5000 t … 5000 t + 4999 of the row array [50000, 128], the same rows of the factor column
  [50000, 1] and the whole bias row [1, 128], and writes rows 5000 t … 5000 t + 4999 of the output with
      out(p, q) = max (s(p, q) · d(p, 0) + b(0, q)) 0,
  the column laid across the 128 columns and the bias row laid down the rows. Entry (p, q) of the block written at point t
  therefore depends only on entry (5000 t + p, q) of the rows, entry (5000 t + p, 0) of the column and entry (0, q) of the
  bias row, so every point writes the block of ONE whole-array function (`biasRelu`), and since the ten blocks fill the
  rows the output array ends holding that function of the arrays as the region finds them. At the ideal values: a cast
  to the same shape is the identity, products, sums and maxima are the extended reals', the zero word reads 0.
-/
import proofs.«133147_j27951647163110_2_alg».proof.Proof.Gen.KernelIdeal.Frame
import proofs.«133147_j27951647163110_2_alg».proof.Proof.LibGraphLayers
import proofs.«133147_j27951647163110_2_alg».proof.Proof.LibAffineAt
import proofs.«133147_j27951647163110_2_alg».proof.Proof.LibKeepdims
import Idealize.ShloMosaic.Lib.Pipeline.Value
import Idealize.ShloMosaic.Lib.ValueIdx
import Idealize.ShloMosaic.PureOps.Ideal.Laws

noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear
variable (V : (c : Dev nD) → (b : Ref sig .tc) → Buf (Elt Ideal) ((c : Thread nD τ).loc b)) (c : Dev nD)

/-- The body's arithmetic at one entry: the row block's entry times its row's factor, plus the bias row's entry,
    maximum with zero. -/
private theorem pay_at2 (x0 : FVec Ideal S5000x128 .f32) (x1 : FVec Ideal S5000x1 .f32) (x2 : FVec Ideal S1x128 .f32)
    (p : Fin 5000) (q : Fin 128) :
    k2_pay1 x0 x1 x2 (ix2 p q)
      = max (x0 (ix2 p q) * x1 (ix2 p (0 : Fin 1)) + x2 (ix2 (0 : Fin 1) q)) (0 : EReal) := by
  unfold k2_pay1
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · rw [shapeCast_self]
    · rw [shapeCast_self]
      exact Cert.Lib.Keepdims.broadcastTo_a1_ab_apply x1 _ p q
  · rw [shapeCast_self]
    exact Cert.LibAffineAt.broadcastTo_oneRow_apply x2 _ p q

/-- The same at any index of the block. -/
private theorem pay_idx2 (x0 : FVec Ideal S5000x128 .f32) (x1 : FVec Ideal S5000x1 .f32) (x2 : FVec Ideal S1x128 .f32)
    (y : S5000x128.Idx) :
    k2_pay1 x0 x1 x2 y
      = max (x0 y * x1 (ix2 (y 0) (0 : Fin 1)) + x2 (ix2 (0 : Fin 1) (y 1))) (0 : EReal) := by
  obtain ⟨p, q, rfl⟩ : ∃ (p : Fin 5000) (q : Fin 128), y = ix2 p q := ⟨y 0, y 1, eq_ix2 y⟩
  exact pay_at2 x0 x1 x2 p q

/-- One entry of what a point leaves: if the three blocks read the arrays at the entry's row and column, the body's
    arithmetic there is the whole-array function there. -/
private theorem point2 (A0 : Mat 50000 128) (A1 : Mat 50000 1) (A2 : Mat 1 128)
    (x0 : FVec Ideal S5000x128 .f32) (x1 : FVec Ideal S5000x1 .f32) (x2 : FVec Ideal S1x128 .f32)
    (y : S5000x128.Idx) (e : S50000x128.Idx)
    (h0 : x0 y = A0 e)
    (h1 : x1 (ix2 (y 0) (0 : Fin 1)) = A1 (ix2 (e 0) (0 : Fin 1)))
    (h2 : x2 (ix2 (0 : Fin 1) (y 1)) = A2 (ix2 (0 : Fin 1) (e 1))) :
    k2_pay1 (F := Ideal) x0 x1 x2 y = biasRelu A0 A1 A2 e := by
  rw [pay_idx2, h0, h1, h2]; rfl

/-- The zero offsets of a whole-block access, as the constant function. -/
private theorem hz2 : (![0, 0] : Fin 2 → Nat) = fun _ => 0 := funext fun a => by fin_cases a <;> rfl

/-- The index maps over the grid: the row-block windows sit at block (t, 0), the bias row at block (0, 0). -/
private theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function: entry (p, q) of the block is the body's
    arithmetic on row 5000 t + p of the rows, that row's factor, and column q of the bias row. -/
private theorem flushed_eq2 (t : Fin cfg2.N) :
    (dat2 (F := Ideal) V c).flushed 3 t = ((cfg2.win 3).blk t).view.read (Elt Ideal)
      (biasRelu (V c main_v28 : Mat 50000 128) (V c main_v15 : Mat 50000 1) (V c main_v29 : Mat 1 128)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2, View.ld_unit_zero (S := S1x128) hz2]
  funext j
  obtain ⟨e0, e1, e2, e3, e4, e5, e6, e7⟩ := idx_facts2 t
  refine point2 (V c main_v28 : Mat 50000 128) (V c main_v15 : Mat 50000 1) (V c main_v29 : Mat 1 128)
    (iblk2 V c 0 t) (iblk2 V c 1 t) (iblk2 V c 2 t) ((cfg2.win 3).xinj (grid2.coords t) j) (((cfg2.win 3).blk t).view.emb j) ?_ ?_ ?_
  · show (V c main_v28 : Mat 50000 128) (((cfg2.win 0).blk t).view.emb j) = (V c main_v28 : Mat 50000 128) (((cfg2.win 3).blk t).view.emb j)
    refine congrArg (V c main_v28 : Mat 50000 128) ?_
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  · show (V c main_v15 : Mat 50000 1) (((cfg2.win 1).blk t).view.emb _) = (V c main_v15 : Mat 50000 1) _
    refine congrArg (V c main_v15 : Mat 50000 1) ?_
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · show (V c main_v29 : Mat 1 128) (((cfg2.win 2).blk t).view.emb _) = (V c main_v29 : Mat 1 128) _
    refine congrArg (V c main_v29 : Mat 1 128) ?_
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index of the output array is in point t's block iff each coordinate is in the block's range on its axis. -/
private theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v30).slice (win2_3.rect t)).set ↔ _
  rw [View.set_slice_whole, Rect.mem_set_unit]
  exact Iff.rfl

/-- Row r of the output lies in the block of point r / 5000: the ten blocks of 5000 rows fill the 50000 rows. -/
private theorem cover2 (i : S50000x128.Idx) :
    ∃ t : Fin cfg2.N, (cfg2.win 3).flush t = true ∧ i ∈ ((cfg2.win 3).blk t).view.set := by
  have hN : grid2.N = 10 := N_2
  have hi0 : (i 0).val < 50000 := (i 0).isLt
  have hi1 : (i 1).val < 128 := (i 1).isLt
  have ht : (i 0).val / 5000 < grid2.N := by rw [hN]; omega
  obtain ⟨e0, e1, e2, e3, e4, e5, e6, e7⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e7]; omega

theorem region2_value :
    ((dat2 (F := Ideal) V c).arrAt 3 cfg2.N : Mat 50000 128)
      = biasRelu (V c main_v28 : Mat 50000 128) (V c main_v15 : Mat 50000 1) (V c main_v29 : Mat 1 128) :=
  (dat2 (F := Ideal) V c).arrAt_eq_of_cover 3
    (biasRelu (V c main_v28 : Mat 50000 128) (V c main_v15 : Mat 50000 1) (V c main_v29 : Mat 1 128))
    (fun t _ => flushed_eq2 V c t) cover2

end Cert.KernelIdeal.RegionValues
end
-- ==== Proof.Region3.lean ====
/-
  Region 3 of the kernel program: rows times weights, each row scaled by its entry of a column, as one function of
  the whole arrays.

  The region runs over ten grid points; point t reads rows 5000·t … 5000·t + 4999 of the row array and of the column,
  the whole 128 × 128 weight matrix, and writes the same rows of the output. On one block the body multiplies the
  block of rows by the weights into a zero accumulator (the change of float format before the product is the identity
  at the extended reals) and multiplies each row by its entry of the column block, broadcast across the 128 columns.
  So the block's entry (p, q) is (Σ_k x(r, k) · w(k, q)) · d(r, 0) with r = 5000·t + p: the block at point t is the
  restriction of one whole-array function to the rows of point t. Every row r lies in the block of point r / 5000, so
  the ten blocks cover the output array, which therefore ends holding that function.
-/
import proofs.«133147_j27951647163110_2_alg».proof.Proof.Gen.KernelIdeal.Frame
import proofs.«133147_j27951647163110_2_alg».proof.Proof.LibGraphLayers
import proofs.«133147_j27951647163110_2_alg».proof.Proof.LibMatmulAt
import proofs.«133147_j27951647163110_2_alg».proof.Proof.LibKeepdims
import Idealize.ShloMosaic.Lib.Pipeline.Value
import Idealize.ShloMosaic.Lib.ValueIdx
import Idealize.ShloMosaic.PureOps.Ideal.Laws
noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear
variable (V : (c : Dev nD) → (b : Ref sig .tc) → Buf (Elt Ideal) ((c : Thread nD τ).loc b)) (c : Dev nD)

/-- The block's arithmetic at one entry: the block's row times the weight column, as an exact sum, times the row's
    entry of the column block. A cast to the same shape and a change of float format are the identity. -/
private theorem pay_at3 (x0 : FVec Ideal S5000x128 .f32) (x1 : FVec Ideal S128x128 .f32) (x2 : FVec Ideal S5000x1 .f32)
    (p : Fin 5000) (q : Fin 128) :
    k3_pay1 x0 x1 x2 (ix2 p q) = (∑ k : Fin 128, x0 (ix2 p k) * x1 (ix2 k q)) * x2 (ix2 p (0 : Fin 1)) := by
  unfold k3_pay1
  refine (mulf_apply _ _ _).trans ?_
  refine congrArg₂ (· * ·) ?_ ?_
  · refine (Cert.KernelIdeal.Hand.matmul_zero_plain_apply _ rfl none _ _ (ix2 p q)).trans ?_
    refine Finset.sum_congr rfl fun k _ => ?_
    refine congrArg₂ (· * ·) ?_ rfl
    exact congrFun (shapeCast_self x0 _) (ix2 p k)
  · refine (Cert.Lib.Keepdims.broadcastTo_a1_ab_apply _ _ p q).trans ?_
    exact congrFun (shapeCast_self x2 _) (ix2 p (0 : Fin 1))

/-- A block of 5000 rows whose row p is row r of the arrays: if the three blocks read the arrays where the block sits
    (row p of the row blocks is row r of their arrays, the weights whole), the block's arithmetic at (p, q) is the
    whole-array function at (r, q). -/
private theorem block_value3 (A : Mat 50000 128) (W : Mat 128 128) (D : Mat 50000 1)
    (x0 : FVec Ideal S5000x128 .f32) (x1 : FVec Ideal S128x128 .f32) (x2 : FVec Ideal S5000x1 .f32)
    (p : Fin 5000) (q : Fin 128) (r : Fin 50000)
    (h0 : ∀ k : Fin 128, x0 (ix2 p k) = A (ix2 r k))
    (h1 : ∀ k : Fin 128, x1 (ix2 k q) = W (ix2 k q))
    (h2 : x2 (ix2 p (0 : Fin 1)) = D (ix2 r (0 : Fin 1))) :
    k3_pay1 (F := Ideal) x0 x1 x2 (ix2 p q) = scaled A W D (ix2 r q) := by
  refine (pay_at3 x0 x1 x2 p q).trans ?_
  rw [scaled_apply, h2]
  refine congrArg (· * D (ix2 r (0 : Fin 1))) (Finset.sum_congr rfl fun k _ => ?_)
  rw [h0 k, h1 k]

/-- The printed index maps over the grid: at point t the row blocks sit at block row t, block column 0, and the weights'
    one block at (0, 0). -/
private theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The zero offsets of a whole-block access, as the constant function. -/
private theorem zeros3 : (![0, 0] : Fin 2 → Nat) = fun _ => 0 := funext fun a => by fin_cases a <;> rfl

/-- What point t writes back is block t of the whole-array function: an element (p, q) of a row block at point t sits
    at row t · 5000 + p of its array, and the weights' block is the whole matrix. -/
private theorem flushed3_eq (t : Fin cfg3.N) :
    (dat3 (F := Ideal) V c).flushed 3 t = ((cfg3.win 3).blk t).view.read (Elt Ideal)
      (scaled (V c main_v30 : Mat 50000 128) (V c main_arg6 : Mat 128 128) (V c main_v15 : Mat 50000 1)) := by
  show (cfg3.win 3).cut (grid3.coords t) ((dat3 (F := Ideal) V c).after 3 t) = _
  rw [after3_3]
  unfold out3_3
  rw [View.canon_unit_zero zeros3]
  simp only [View.ld_unit_zero (S := S5000x128) zeros3, View.ld_unit_zero (S := S128x128) zeros3, View.ld_unit_zero (S := S5000x1) zeros3]
  obtain ⟨e0, e1, e2, e3, e4, e5, e6, e7⟩ := idx_facts3 t
  have hN : cfg3.N = 10 := N_3
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  show k3_pay1 (F := Ideal) (iblk3 V c 0 t) (iblk3 V c 1 t) (iblk3 V c 2 t) (ix2 p q)
    = scaled (V c main_v30 : Mat 50000 128) (V c main_arg6 : Mat 128 128) (V c main_v15 : Mat 50000 1) (((cfg3.win 3).blk t).view.emb (ix2 p q))
  have he : (((cfg3.win 3).blk t).view.emb (ix2 p q) : S50000x128.Idx) = ix2 (⟨t.val * 5000 + p.val, by omega⟩ : Fin 50000) q := by
    funext a; apply Fin.ext
    match a with
    | ⟨0, _⟩ => show win3_3.index t (0 : Fin 2) * 5000 + 1 * p.val = t.val * 5000 + p.val; rw [e6]; omega
    | ⟨1, _⟩ => show win3_3.index t (1 : Fin 2) * 128 + 1 * q.val = q.val; rw [e7]; omega
  rw [he]
  refine block_value3 (V c main_v30 : Mat 50000 128) (V c main_arg6 : Mat 128 128) (V c main_v15 : Mat 50000 1)
    (iblk3 V c 0 t) (iblk3 V c 1 t) (iblk3 V c 2 t) p q (⟨t.val * 5000 + p.val, by omega⟩ : Fin 50000)
    (fun k => ?_) (fun k => ?_) ?_
  · show (V c main_v30 : Mat 50000 128) (((cfg3.win 0).blk t).view.emb (ix2 p k)) = _
    refine congrArg (V c main_v30 : Mat 50000 128) ?_
    funext a; apply Fin.ext
    match a with
    | ⟨0, _⟩ => show win3_0.index t (0 : Fin 2) * 5000 + 1 * p.val = t.val * 5000 + p.val; rw [e0]; omega
    | ⟨1, _⟩ => show win3_0.index t (1 : Fin 2) * 128 + 1 * k.val = k.val; rw [e1]; omega
  · show (V c main_arg6 : Mat 128 128) (((cfg3.win 1).blk t).view.emb (ix2 k q)) = _
    refine congrArg (V c main_arg6 : Mat 128 128) ?_
    funext a; apply Fin.ext
    match a with
    | ⟨0, _⟩ => show win3_1.index t (0 : Fin 2) * 128 + 1 * k.val = k.val; rw [e2]; omega
    | ⟨1, _⟩ => show win3_1.index t (1 : Fin 2) * 128 + 1 * q.val = q.val; rw [e3]; omega
  · show (V c main_v15 : Mat 50000 1) (((cfg3.win 2).blk t).view.emb (ix2 p (0 : Fin 1))) = _
    refine congrArg (V c main_v15 : Mat 50000 1) ?_
    funext a; apply Fin.ext
    match a with
    | ⟨0, _⟩ => show win3_2.index t (0 : Fin 2) * 5000 + 1 * p.val = t.val * 5000 + p.val; rw [e4]; omega
    | ⟨1, _⟩ => show win3_2.index t (1 : Fin 2) * 1 + 1 * 0 = 0; rw [e5]

/-- An index of the output array is in point t's block iff each coordinate is in the block's range on its axis. -/
private theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v31).slice (win3_3.rect t)).set ↔ _
  rw [View.set_slice_whole, Rect.mem_set_unit]
  exact Iff.rfl

/-- The blocks cover the output array: row r is in the block of point r / 5000. -/
private theorem cover3 (i : S50000x128.Idx) :
    ∃ t : Fin cfg3.N, (cfg3.win 3).flush t = true ∧ i ∈ ((cfg3.win 3).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨e0, e1, e2, e3, e4, e5, e6, e7⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 128 ≤ (i 1).val ∧ (i 1).val < win3_3.index t (1 : Fin 2) * 128 + 128
    rw [e7]; omega

theorem region3_value :
    ((dat3 (F := Ideal) V c).arrAt 3 cfg3.N : Mat 50000 128)
      = scaled (V c main_v30 : Mat 50000 128) (V c main_arg6 : Mat 128 128) (V c main_v15 : Mat 50000 1) :=
  (dat3 (F := Ideal) V c).arrAt_eq_of_cover 3
    (scaled (V c main_v30 : Mat 50000 128) (V c main_arg6 : Mat 128 128) (V c main_v15 : Mat 50000 1))
    (fun t _ => flushed3_eq V c t) (cover3)

end Cert.KernelIdeal.RegionValues
end
-- ==== Proof.Region4.lean ====
/-
  Region 4 of the kernel program: a bias-and-rectifier pass over the rows. The region walks the 50000 rows in ten blocks of
  5000. At point t it reads rows 5000 t … 5000 t + 4999 of the row array [50000, 128], the same rows of the factor column
  [50000, 1] and the whole bias row [1, 128], and writes rows 5000 t … 5000 t + 4999 of the output with
      out(p, q) = max (s(p, q) · d(p, 0) + b(0, q)) 0,
  the column laid across the 128 columns and the bias row laid down the rows. Entry (p, q) of the block written at point t
  therefore depends only on entry (5000 t + p, q) of the rows, entry (5000 t + p, 0) of the column and entry (0, q) of the
  bias row, so every point writes the block of ONE whole-array function (`biasRelu`), and since the ten blocks fill the
  rows the output array ends holding that function of the arrays as the region finds them. At the ideal values: a cast
  to the same shape is the identity, products, sums and maxima are the extended reals', the zero word reads 0.
-/
import proofs.«133147_j27951647163110_2_alg».proof.Proof.Gen.KernelIdeal.Frame
import proofs.«133147_j27951647163110_2_alg».proof.Proof.LibGraphLayers
import proofs.«133147_j27951647163110_2_alg».proof.Proof.LibAffineAt
import proofs.«133147_j27951647163110_2_alg».proof.Proof.LibKeepdims
import Idealize.ShloMosaic.Lib.Pipeline.Value
import Idealize.ShloMosaic.Lib.ValueIdx
import Idealize.ShloMosaic.PureOps.Ideal.Laws

noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear
variable (V : (c : Dev nD) → (b : Ref sig .tc) → Buf (Elt Ideal) ((c : Thread nD τ).loc b)) (c : Dev nD)

/-- The body's arithmetic at one entry: the row block's entry times its row's factor, plus the bias row's entry,
    maximum with zero. -/
private theorem pay_at4 (x0 : FVec Ideal S5000x128 .f32) (x1 : FVec Ideal S5000x1 .f32) (x2 : FVec Ideal S1x128 .f32)
    (p : Fin 5000) (q : Fin 128) :
    k4_pay1 x0 x1 x2 (ix2 p q)
      = max (x0 (ix2 p q) * x1 (ix2 p (0 : Fin 1)) + x2 (ix2 (0 : Fin 1) q)) (0 : EReal) := by
  unfold k4_pay1
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · rw [shapeCast_self]
    · rw [shapeCast_self]
      exact Cert.Lib.Keepdims.broadcastTo_a1_ab_apply x1 _ p q
  · rw [shapeCast_self]
    exact Cert.LibAffineAt.broadcastTo_oneRow_apply x2 _ p q

/-- The same at any index of the block. -/
private theorem pay_idx4 (x0 : FVec Ideal S5000x128 .f32) (x1 : FVec Ideal S5000x1 .f32) (x2 : FVec Ideal S1x128 .f32)
    (y : S5000x128.Idx) :
    k4_pay1 x0 x1 x2 y
      = max (x0 y * x1 (ix2 (y 0) (0 : Fin 1)) + x2 (ix2 (0 : Fin 1) (y 1))) (0 : EReal) := by
  obtain ⟨p, q, rfl⟩ : ∃ (p : Fin 5000) (q : Fin 128), y = ix2 p q := ⟨y 0, y 1, eq_ix2 y⟩
  exact pay_at4 x0 x1 x2 p q

/-- One entry of what a point leaves: if the three blocks read the arrays at the entry's row and column, the body's
    arithmetic there is the whole-array function there. -/
private theorem point4 (A0 : Mat 50000 128) (A1 : Mat 50000 1) (A2 : Mat 1 128)
    (x0 : FVec Ideal S5000x128 .f32) (x1 : FVec Ideal S5000x1 .f32) (x2 : FVec Ideal S1x128 .f32)
    (y : S5000x128.Idx) (e : S50000x128.Idx)
    (h0 : x0 y = A0 e)
    (h1 : x1 (ix2 (y 0) (0 : Fin 1)) = A1 (ix2 (e 0) (0 : Fin 1)))
    (h2 : x2 (ix2 (0 : Fin 1) (y 1)) = A2 (ix2 (0 : Fin 1) (e 1))) :
    k4_pay1 (F := Ideal) x0 x1 x2 y = biasRelu A0 A1 A2 e := by
  rw [pay_idx4, h0, h1, h2]; rfl

/-- The zero offsets of a whole-block access, as the constant function. -/
private theorem hz4 : (![0, 0] : Fin 2 → Nat) = fun _ => 0 := funext fun a => by fin_cases a <;> rfl

/-- The index maps over the grid: the row-block windows sit at block (t, 0), the bias row at block (0, 0). -/
private theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array function: entry (p, q) of the block is the body's
    arithmetic on row 5000 t + p of the rows, that row's factor, and column q of the bias row. -/
private theorem flushed_eq4 (t : Fin cfg4.N) :
    (dat4 (F := Ideal) V c).flushed 3 t = ((cfg4.win 3).blk t).view.read (Elt Ideal)
      (biasRelu (V c main_v41 : Mat 50000 128) (V c main_v15 : Mat 50000 1) (V c main_v42 : Mat 1 128)) := by
  show (cfg4.win 3).cut (grid4.coords t) ((dat4 V c).after 3 t) = _
  rw [after4_3]
  unfold out4_3
  rw [View.canon_unit_zero hz4]
  simp only [View.ld_unit_zero (S := S5000x128) hz4, View.ld_unit_zero (S := S5000x1) hz4, View.ld_unit_zero (S := S1x128) hz4]
  funext j
  obtain ⟨e0, e1, e2, e3, e4, e5, e6, e7⟩ := idx_facts4 t
  refine point4 (V c main_v41 : Mat 50000 128) (V c main_v15 : Mat 50000 1) (V c main_v42 : Mat 1 128)
    (iblk4 V c 0 t) (iblk4 V c 1 t) (iblk4 V c 2 t) ((cfg4.win 3).xinj (grid4.coords t) j) (((cfg4.win 3).blk t).view.emb j) ?_ ?_ ?_
  · show (V c main_v41 : Mat 50000 128) (((cfg4.win 0).blk t).view.emb j) = (V c main_v41 : Mat 50000 128) (((cfg4.win 3).blk t).view.emb j)
    refine congrArg (V c main_v41 : Mat 50000 128) ?_
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * (j 1).val = win4_3.index t (1 : Fin 2) * 128 + 1 * (j 1).val; omega
  · show (V c main_v15 : Mat 50000 1) (((cfg4.win 1).blk t).view.emb _) = (V c main_v15 : Mat 50000 1) _
    refine congrArg (V c main_v15 : Mat 50000 1) ?_
    funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 1 + 1 * 0 = 0; omega
  · show (V c main_v42 : Mat 1 128) (((cfg4.win 2).blk t).view.emb _) = (V c main_v42 : Mat 1 128) _
    refine congrArg (V c main_v42 : Mat 1 128) ?_
    funext a; apply Fin.ext
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega

/-- An index of the output array is in point t's block iff each coordinate is in the block's range on its axis. -/
private theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v43).slice (win4_3.rect t)).set ↔ _
  rw [View.set_slice_whole, Rect.mem_set_unit]
  exact Iff.rfl

/-- Row r of the output lies in the block of point r / 5000: the ten blocks of 5000 rows fill the 50000 rows. -/
private theorem cover4 (i : S50000x128.Idx) :
    ∃ t : Fin cfg4.N, (cfg4.win 3).flush t = true ∧ i ∈ ((cfg4.win 3).blk t).view.set := by
  have hN : grid4.N = 10 := N_4
  have hi0 : (i 0).val < 50000 := (i 0).isLt
  have hi1 : (i 1).val < 128 := (i 1).isLt
  have ht : (i 0).val / 5000 < grid4.N := by rw [hN]; omega
  obtain ⟨e0, e1, e2, e3, e4, e5, e6, e7⟩ := idx_facts4 ⟨(i 0).val / 5000, ht⟩
  refine ⟨⟨(i 0).val / 5000, ht⟩, flush4_3 _, ?_⟩
  rw [mem_blk4]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val
      ∧ (i 1).val < win4_3.index ⟨(i 0).val / 5000, ht⟩ (1 : Fin 2) * 128 + 128
    rw [e7]; omega

theorem region4_value :
    ((dat4 (F := Ideal) V c).arrAt 3 cfg4.N : Mat 50000 128)
      = biasRelu (V c main_v41 : Mat 50000 128) (V c main_v15 : Mat 50000 1) (V c main_v42 : Mat 1 128) :=
  (dat4 (F := Ideal) V c).arrAt_eq_of_cover 3
    (biasRelu (V c main_v41 : Mat 50000 128) (V c main_v15 : Mat 50000 1) (V c main_v42 : Mat 1 128))
    (fun t _ => flushed_eq4 V c t) cover4

end Cert.KernelIdeal.RegionValues
end
-- ==== Proof.Region5.lean ====
/-
  The last launch of the program (an affine decoder), read as one function of whole arrays.

  The launch walks ten grid points; point t holds rows 5000·t … 5000·t + 4999 of the input rows, the whole 128 × 64
  weight matrix and the whole one-row bias, and writes rows 5000·t … 5000·t + 4999 of the output. What it writes at row p
  and column q of its block is Σ_k x(p, k) · w(k, q) + b(0, q) on the extended reals (a change of float format is the
  identity there, a recast of a block to its own shape is the identity, and the product accumulates into zero). Row p of
  block t is row 5000·t + p of the array, so every point writes its own block of ONE whole-array function, the affine map
  of the rows, the weights and the bias; the ten blocks cover the 50000 rows (row r lies in block r / 5000), hence the
  output array after the launch is that affine map.
-/
import proofs.«133147_j27951647163110_2_alg».proof.Proof.Gen.KernelIdeal.Frame
import proofs.«133147_j27951647163110_2_alg».proof.Proof.LibGraphLayers
import proofs.«133147_j27951647163110_2_alg».proof.Proof.LibAffineAt
import Idealize.ShloMosaic.Lib.Pipeline.Value
import Idealize.ShloMosaic.Lib.ValueIdx
import Idealize.ShloMosaic.PureOps.Ideal.Laws

noncomputable section
namespace Cert.KernelIdeal.RegionValues
open Idealize.ShloMosaic Idealize.ShloMosaic.ValueIdx Idealize.ShloMosaic.TcCoe Idealize.SL.Sem
open Cert.KernelIdeal Cert.KernelIdeal.Gen Cert.GraphLinear

variable (V : (c : Dev nD) → (b : Ref sig .tc) → Buf (Elt Ideal) ((c : Thread nD τ).loc b)) (c : Dev nD)

/-- The body's payload at row p and column q of its block: the block's row times the weights' column, plus the bias. -/
private theorem pay5_at (x0 : FVec Ideal S5000x128 .f32) (x1 : FVec Ideal S128x64 .f32) (x2 : FVec Ideal S1x64 .f32)
    (p : Fin 5000) (q : Fin 64) :
    k5_pay1 x0 x1 x2 (ix2 p q) = (∑ k : Fin 128, x0 (ix2 p k) * x1 (ix2 k q)) + x2 (ix2 (0 : Fin 1) q) := by
  unfold k5_pay1
  refine (Cert.LibAffineAt.block_at dot_S5000x128_S128x64_S5000x64_1_0_0_1_n_n rfl broadcasts_S1x64_S5000x64
    (shapeCast S5000x128 x0 shapeCasts_S5000x128_S5000x128) x1 (shapeCast S1x64 x2 shapeCasts_S1x64_S1x64)
    bitsLt_bf16_f32 p q).trans ?_
  rw [shapeCast_self, shapeCast_self]

private theorem hz5 : (![0, 0] : Fin 2 → Nat) = fun _ => 0 := funext fun a => by fin_cases a <;> rfl

/-- The printed index maps over the grid: the row blocks move with the point, the weights and the bias stay. -/
private theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One entry of what a point leaves, from what its blocks read: if row p of the row block is row r of the whole rows,
    and the weights and the bias are read whole, the payload at (p, q) is the affine map at (r, q). -/
private theorem point5 (X0 : FVec Ideal S5000x128 .f32) (X1 : FVec Ideal S128x64 .f32) (X2 : FVec Ideal S1x64 .f32)
    (A : Mat 50000 128) (W : Mat 128 64) (B : Mat 1 64) (p : Fin 5000) (q : Fin 64) (r : Fin 50000)
    (h0 : ∀ k : Fin 128, X0 (ix2 p k) = A (ix2 r k)) (h1 : X1 = W) (h2 : X2 = B) :
    k5_pay1 (F := Ideal) X0 X1 X2 (ix2 p q) = affine A W B (ix2 r q) := by
  subst h1 h2
  rw [pay5_at, affine_apply]
  simp only [h0]

/-- What point t writes back is block t of the affine map of the arrays as the launch finds them. -/
private theorem flushed5_eq (t : Fin cfg5.N) :
    (dat5 (F := Ideal) V c).flushed 3 t = ((cfg5.win 3).blk t).view.read (Elt Ideal)
      (affine (V c main_v43 : Mat 50000 128) (V c main_arg8 : Mat 128 64) (V c main_v44 : Mat 1 64)) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S128x64) hz5, View.ld_unit_zero (S := S1x64) hz5]
  obtain ⟨e00, e01, e10, e11, e20, e21, e30, e31⟩ := idx_facts5 t
  have hN : t.val < 10 := by have h1 := t.isLt; have h2 : cfg5.N = 10 := N_5; omega
  funext j
  have hp : (j 0).val < 5000 := (j 0).isLt
  have hq : (j 1).val < 64 := (j 1).isLt
  have e1 : (win5 3).xinj (grid5.coords t) j = ix2 (⟨(j 0).val, hp⟩ : Fin 5000) (⟨(j 1).val, hq⟩ : Fin 64) := by
    funext a
    match a with
    | ⟨0, _⟩ => rfl
    | ⟨1, _⟩ => rfl
  have e2 : ((cfg5.win 3).blk t).view.emb j
      = ix2 (⟨t.val * 5000 + (j 0).val, by omega⟩ : Fin 50000) (⟨(j 1).val, hq⟩ : Fin 64) := by
    funext a; apply Fin.ext
    match a with
    | ⟨0, _⟩ => show win5_3.index t (0 : Fin 2) * 5000 + 1 * (j 0).val = t.val * 5000 + (j 0).val; rw [e30]; omega
    | ⟨1, _⟩ => show win5_3.index t (1 : Fin 2) * 64 + 1 * (j 1).val = (j 1).val; rw [e31]; omega
  have h0 : ∀ k : Fin 128, (iblk5 V c 0 t : FVec Ideal S5000x128 .f32) (ix2 (⟨(j 0).val, hp⟩ : Fin 5000) k)
      = (V c main_v43 : Mat 50000 128) (ix2 (⟨t.val * 5000 + (j 0).val, by omega⟩ : Fin 50000) k) := by
    intro k
    show V c main_v43 (((cfg5.win 0).blk t).view.emb (ix2 (⟨(j 0).val, hp⟩ : Fin 5000) k)) = V c main_v43 _
    refine congrArg _ ?_
    funext a; apply Fin.ext
    match a with
    | ⟨0, _⟩ => show win5_0.index t (0 : Fin 2) * 5000 + 1 * (j 0).val = t.val * 5000 + (j 0).val; rw [e00]; omega
    | ⟨1, _⟩ => show win5_0.index t (1 : Fin 2) * 128 + 1 * k.val = k.val; rw [e01]; omega
  have h1 : (iblk5 V c 1 t : FVec Ideal S128x64 .f32) = (V c main_arg8 : Mat 128 64) := by
    funext y
    show V c main_arg8 (((cfg5.win 1).blk t).view.emb y) = V c main_arg8 y
    refine congrArg _ ?_
    funext a; apply Fin.ext
    match a with
    | ⟨0, _⟩ => show win5_1.index t (0 : Fin 2) * 128 + 1 * (y 0).val = (y 0).val; rw [e10]; omega
    | ⟨1, _⟩ => show win5_1.index t (1 : Fin 2) * 64 + 1 * (y 1).val = (y 1).val; rw [e11]; omega
  have h2 : (iblk5 V c 2 t : FVec Ideal S1x64 .f32) = (V c main_v44 : Mat 1 64) := by
    funext y
    show V c main_v44 (((cfg5.win 2).blk t).view.emb y) = V c main_v44 y
    refine congrArg _ ?_
    funext a; apply Fin.ext
    match a with
    | ⟨0, _⟩ => show win5_2.index t (0 : Fin 2) * 1 + 1 * (y 0).val = (y 0).val; rw [e20]; omega
    | ⟨1, _⟩ => show win5_2.index t (1 : Fin 2) * 64 + 1 * (y 1).val = (y 1).val; rw [e21]; omega
  show k5_pay1 (iblk5 V c 0 t) (iblk5 V c 1 t) (iblk5 V c 2 t) ((win5 3).xinj (grid5.coords t) j)
    = affine (V c main_v43 : Mat 50000 128) (V c main_arg8 : Mat 128 64) (V c main_v44 : Mat 1 64) (((cfg5.win 3).blk t).view.emb j)
  rw [e1, e2]
  exact point5 (iblk5 V c 0 t) (iblk5 V c 1 t) (iblk5 V c 2 t) (V c main_v43) (V c main_arg8) (V c main_v44)
    ⟨(j 0).val, hp⟩ ⟨(j 1).val, hq⟩ ⟨t.val * 5000 + (j 0).val, by omega⟩ h0 h1 h2

/-- An index of the output array is in point t's block iff each coordinate is in the block's range on its axis. -/
private theorem mem_blk5 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v45).slice (win5_3.rect t)).set ↔ _
  rw [View.set_slice_whole, Rect.mem_set_unit]
  exact Iff.rfl

/-- Row r of the output is in the block of point r / 5000: the ten row blocks cover the array. -/
private theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨e00, e01, e10, e11, e20, e21, e30, e31⟩ := idx_facts5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win5_3.index ⟨(i 0).val / 5000, ht⟩ (1 : Fin 2) * 64 ≤ (i 1).val
      ∧ (i 1).val < win5_3.index ⟨(i 0).val / 5000, ht⟩ (1 : Fin 2) * 64 + 64
    rw [e31]
    omega

/-- The output array after the launch is the affine map of the rows, the weights and the bias as the launch finds them. -/
theorem region5_value :
    ((dat5 (F := Ideal) V c).arrAt 3 cfg5.N : Mat 50000 64)
      = affine (V c main_v43 : Mat 50000 128) (V c main_arg8 : Mat 128 64) (V c main_v44 : Mat 1 64) :=
  (dat5 (F := Ideal) V c).arrAt_eq_of_cover 3
    (affine (V c main_v43 : Mat 50000 128) (V c main_arg8 : Mat 128 64) (V c main_v44 : Mat 1 64))
    (fun t _ => flushed5_eq V c t) cover5

end Cert.KernelIdeal.RegionValues
end
-- ==== Proof.KernelValue.lean ====
/-
  The value of the idealized kernel program: its result array as one function of the argument arrays.

  The buffer contents at the segment boundaries are followed from the launch to the return. At the first region's entry
  the source words, the destination words, the column d and the encoder's bias row are what the host operations computed
  from the arguments; each region leaves in its output array its own whole-array function of its input arrays (the
  region lemmas); each stretch between regions gathers the scaled rows along the messages and adds them into zeros, which
  is the collecting sum of the specification; every buffer a segment does not write keeps its contents. Composed, the
  result is the network in its split arrangement.
-/
import proofs.«133147_j27951647163110_2_alg».proof.Proof.KernelCarry
import proofs.«133147_j27951647163110_2_alg».proof.Proof.KernelHost
import proofs.«133147_j27951647163110_2_alg».proof.Proof.LibCollect
import proofs.«133147_j27951647163110_2_alg».proof.Proof.Region0
import proofs.«133147_j27951647163110_2_alg».proof.Proof.Region1
import proofs.«133147_j27951647163110_2_alg».proof.Proof.Region2
import proofs.«133147_j27951647163110_2_alg».proof.Proof.Region3
import proofs.«133147_j27951647163110_2_alg».proof.Proof.Region4
import proofs.«133147_j27951647163110_2_alg».proof.Proof.Region5

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.GraphLinear Cert.KernelIdeal.RegionValues

variable (m : (ℓ : Loc nD τ sig) → Buf (Elt Ideal) ℓ) (ρ : Dev nD → PrngReg) (c : Dev nD)

/-! ## The arrays the program passes through, as functions of the arguments -/

abbrev srcW : IVec S1650000 32 := srcWords (m ((c : Thread nD τ).loc main_arg1))
abbrev dstW : IVec S1650000 32 := dstWords (m ((c : Thread nD τ).loc main_arg1))
/-- d as a column. -/
abbrev dcol : Mat 50000 1 := shapeCast S50000x1 (dinvOf (dstW m c)) shapeCasts_S50000_S50000x1
abbrev ber : Mat 1 128 := shapeCast S1x128 (m ((c : Thread nD τ).loc main_arg3)) shapeCasts_S128_S1x128
abbrev b1r : Mat 1 128 := shapeCast S1x128 (m ((c : Thread nD τ).loc main_arg5)) shapeCasts_S128_S1x128
abbrev b2r : Mat 1 128 := shapeCast S1x128 (m ((c : Thread nD τ).loc main_arg7)) shapeCasts_S128_S1x128
abbrev bor : Mat 1 64 := shapeCast S1x64 (m ((c : Thread nD τ).loc main_arg9)) shapeCasts_S64_S1x64

/-- The encoder's rows. -/
def h0 : Mat 50000 128 := affine (m ((c : Thread nD τ).loc main_arg0)) (m ((c : Thread nD τ).loc main_arg2)) (ber m c)
/-- Layer 1: scaled product, gathered sum, activation. -/
def hw1 : Mat 50000 128 := scaled (h0 m c) (m ((c : Thread nD τ).loc main_arg4)) (dcol m c)
def s1 : Mat 50000 128 := gatherAdd (srcW m c) (dstW m c) (hw1 m c)
def h1 : Mat 50000 128 := biasRelu (s1 m c) (dcol m c) (b1r m c)
/-- Layer 2. -/
def hw2 : Mat 50000 128 := scaled (h1 m c) (m ((c : Thread nD τ).loc main_arg6)) (dcol m c)
def s2 : Mat 50000 128 := gatherAdd (srcW m c) (dstW m c) (hw2 m c)
def h2 : Mat 50000 128 := biasRelu (s2 m c) (dcol m c) (b2r m c)
/-- The decoder's rows: the result. -/
def out : Mat 50000 64 := affine (h2 m c) (m ((c : Thread nD τ).loc main_arg8)) (bor m c)

/-! ## At the first region's entry -/

/-- A buffer the @_where stretch and the two reshapes do not write, read back to the first stretch. -/
theorem W3_v3 : W3 m ρ c (Proc.devRef .tc main_v3) = srcW m c :=
  calc W3 m ρ c (Proc.devRef .tc main_v3)
    _ = W2 m ρ c (Proc.devRef .tc main_v3) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = srcW m c := host0_v3 (W0 m ρ c)
theorem W3_v6 : W3 m ρ c (Proc.devRef .tc main_v6) = dstW m c :=
  calc W3 m ρ c (Proc.devRef .tc main_v6)
    _ = W2 m ρ c (Proc.devRef .tc main_v6) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v6) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = dstW m c := host0_v6 (W0 m ρ c)

theorem W2_v14 : W2 m ρ c (Proc.devRef .tc main_v14) = dinvOf (dstW m c) := by
  show StableHlo.after (hostOps0_1 (F := Ideal)) (W1 m ρ c) (Proc.devRef .tc main_v14) = _
  rw [host01_v14]
  show select (StableHlo.after (hostOps0 (F := Ideal)) (W0 m ρ c) (Proc.devRef .tc main_v12))
      (StableHlo.after (hostOps0 (F := Ideal)) (W0 m ρ c) (Proc.devRef .tc main_v13))
      (broadcastInDim S50000 ![] bcast_S_S50000 (StableHlo.after (hostOps0 (F := Ideal)) (W0 m ρ c) (Proc.devRef .tc main_cst_2))) = _
  rw [host0_v12, host0_v13, host0_cst2]
  rfl
theorem W3_v15 : W3 m ρ c (Proc.devRef .tc main_v15) = dcol m c := by
  show StableHlo.after (hostOps0_2 (F := Ideal)) (W2 m ρ c) (Proc.devRef .tc main_v15) = _
  rw [host02_v15, W2_v14]
theorem W2_arg3 : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W3_v16 : W3 m ρ c (Proc.devRef .tc main_v16) = ber m c := by
  show StableHlo.after (hostOps0_2 (F := Ideal)) (W2 m ρ c) (Proc.devRef .tc main_v16) = _
  rw [host02_v16, W2_arg3]

/-! ## Region by region, stretch by stretch -/

theorem W4_v17 : W4 m ρ c (Proc.devRef .tc main_v17) = h0 m c :=
  (W4_arr m ρ c 3).trans ((region0_value (V3 m ρ) c).trans (by
    show affine (W3 m ρ c (Proc.devRef .tc main_arg0)) (W3 m ρ c (Proc.devRef .tc main_arg2)) (W3 m ρ c (Proc.devRef .tc main_v16)) = _
    rw [W3_arg0, W3_arg2, W3_v16]; rfl))

theorem W5_v18 : W5 m ρ c (Proc.devRef .tc main_v18) = hw1 m c :=
  (W5_arr m ρ c 3).trans ((region1_value (V4 m ρ) c).trans (by
    show scaled (W4 m ρ c (Proc.devRef .tc main_v17)) (W4 m ρ c (Proc.devRef .tc main_arg4)) (W4 m ρ c (Proc.devRef .tc main_v15)) = _
    rw [W4_v17, keep4_arg4, W3_arg4, keep4_v15, W3_v15]; rfl))

theorem W6_v28 : W6 m ρ c (Proc.devRef .tc main_v28) = s1 m c := by
  show StableHlo.after (hostOps2 (F := Ideal)) (W5 m ρ c) (Proc.devRef .tc main_v28) = _
  rw [host2_v28, keep5_v3, keep4_v3, W3_v3, keep5_v6, keep4_v6, W3_v6, W5_v18]; rfl
theorem W6_v29 : W6 m ρ c (Proc.devRef .tc main_v29) = b1r m c := by
  show StableHlo.after (hostOps2 (F := Ideal)) (W5 m ρ c) (Proc.devRef .tc main_v29) = _
  rw [host2_v29, keep5_arg5, keep4_arg5, W3_arg5]

theorem W7_v30 : W7 m ρ c (Proc.devRef .tc main_v30) = h1 m c :=
  (W7_arr m ρ c 3).trans ((region2_value (V6 m ρ) c).trans (by
    show biasRelu (W6 m ρ c (Proc.devRef .tc main_v28)) (W6 m ρ c (Proc.devRef .tc main_v15)) (W6 m ρ c (Proc.devRef .tc main_v29)) = _
    rw [W6_v28, W6_v29, keep6_v15, keep5_v15, keep4_v15, W3_v15]; rfl))

theorem W8_v31 : W8 m ρ c (Proc.devRef .tc main_v31) = hw2 m c :=
  (W8_arr m ρ c 3).trans ((region3_value (V7 m ρ) c).trans (by
    show scaled (W7 m ρ c (Proc.devRef .tc main_v30)) (W7 m ρ c (Proc.devRef .tc main_arg6)) (W7 m ρ c (Proc.devRef .tc main_v15)) = _
    rw [W7_v30, keep7_arg6, keep6_arg6, keep5_arg6, keep4_arg6, W3_arg6, keep7_v15, keep6_v15, keep5_v15, keep4_v15, W3_v15]; rfl))

theorem W9_v41 : W9 m ρ c (Proc.devRef .tc main_v41) = s2 m c := by
  show StableHlo.after (hostOps4 (F := Ideal)) (W8 m ρ c) (Proc.devRef .tc main_v41) = _
  rw [host4_v41, keep8_v3, keep7_v3, keep6_v3, keep5_v3, keep4_v3, W3_v3, keep8_v6, keep7_v6, keep6_v6, keep5_v6, keep4_v6, W3_v6, W8_v31]; rfl
theorem W9_v42 : W9 m ρ c (Proc.devRef .tc main_v42) = b2r m c := by
  show StableHlo.after (hostOps4 (F := Ideal)) (W8 m ρ c) (Proc.devRef .tc main_v42) = _
  rw [host4_v42, keep8_arg7, keep7_arg7, keep6_arg7, keep5_arg7, keep4_arg7, W3_arg7]

theorem W10_v43 : W10 m ρ c (Proc.devRef .tc main_v43) = h2 m c :=
  (W10_arr m ρ c 3).trans ((region4_value (V9 m ρ) c).trans (by
    show biasRelu (W9 m ρ c (Proc.devRef .tc main_v41)) (W9 m ρ c (Proc.devRef .tc main_v15)) (W9 m ρ c (Proc.devRef .tc main_v42)) = _
    rw [W9_v41, W9_v42, keep9_v15, keep8_v15, keep7_v15, keep6_v15, keep5_v15, keep4_v15, W3_v15]; rfl))

theorem W11_v44 : W11 m ρ c (Proc.devRef .tc main_v44) = bor m c := by
  show StableHlo.after (hostOps5 (F := Ideal)) (W10 m ρ c) (Proc.devRef .tc main_v44) = _
  rw [host5_v44, keep10_arg9, keep9_arg9, keep8_arg9, keep7_arg9, keep6_arg9, keep5_arg9, keep4_arg9, W3_arg9]

/-- The result buffer at the last boundary is the decoder's rows. -/
theorem W12_v45 : W12 m ρ c (Proc.devRef .tc main_v45) = out m c :=
  (W12_arr m ρ c 3).trans ((region5_value (V11 m ρ) c).trans (by
    show affine (W11 m ρ c (Proc.devRef .tc main_v43)) (W11 m ρ c (Proc.devRef .tc main_arg8)) (W11 m ρ c (Proc.devRef .tc main_v44)) = _
    rw [keep11_v43, W10_v43, W11_v44, keep11_arg8, keep10_arg8, keep9_arg8, keep8_arg8, keep7_arg8, keep6_arg8, keep5_arg8, keep4_arg8, W3_arg8]; rfl))

/-! ## The result is the network in its split arrangement -/

theorem gatherAdd_eq_collect (src dst : IVec S1650000 32) (t : Mat 50000 128) :
    gatherAdd src dst t = collect (N := 50000) (by decide) (dstCol dst) (srcCol src) t :=
  scatter_gather_eq_collect (N := 50000) (E := 1650000) (C := 128) (by decide)
    scatter_S50000x128_S1650000x1_S1650000x128_1_0_0_1 rfl rfl rfl rfl _
    gather_S50000x128_S1650000x1_S1650000x128_1_0_n_n_0_1_1128 rfl bcast_S_S50000x128 (dstCol dst) (srcCol src) t

theorem out_eq_netSplit :
    out m c = netSplit (N := 50000) (E := 1650000) (by decide) (dstCol (dstW m c)) (srcCol (srcW m c)) (dcol m c)
      (m ((c : Thread nD τ).loc main_arg0)) (m ((c : Thread nD τ).loc main_arg2)) (ber m c)
      (m ((c : Thread nD τ).loc main_arg4)) (b1r m c) (m ((c : Thread nD τ).loc main_arg6)) (b2r m c)
      (m ((c : Thread nD τ).loc main_arg8)) (bor m c) := by
  unfold out h2 s2 hw2 h1 s1 hw1 h0 netSplit layerSplit
  rw [gatherAdd_eq_collect, gatherAdd_eq_collect]

end Cert.KernelIdeal.Chain

end
-- ==== Proof.LibGatherVec.lean ====
/-
  A gather from a vector read at an index. What `x[idx]` of a vector `x : [N]` at an integer vector lowers to: a gather
  along the one axis with single entries as slices (no offset axis, axis 0 collapsed, slice sizes `[1]`) over the indices
  laid out as a column `[R, 1]`. Result entry `f` is the vector's entry `row f`, where `row f` is the start index at `f`
  read as a signed integer and clamped into `[0, N − 1]`: the same row a gather of whole rows of a table with N rows
  reads at these indices. Nothing here depends on a program.
-/
import Idealize.ShloMosaic.Lib.ValueIdx
import proofs.«133147_j27951647163110_2_alg».proof.Proof.LibGatherRows

namespace Cert.LibGatherVec

open Idealize.ShloMosaic Idealize.ShloMosaic.ValueIdx Cert.KernelIdeal.Hand

variable {α : Type}

/-- The dimension numbers of a gather of single entries from a vector `[N]` at start indices `[R, 1]` into `[R]`; their
    conditions `wf` are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `f`: the vector at `rowOf f`, the start index at `f` read signed and clamped. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (f : Fin R) :
    Host.gather (vecDims N R wf) x idx (ix1 f) = x (ix1 (rowOf hN idx f)) := by
  unfold Host.gather
  congr 1
  funext a
  refine Fin.ext ?_
  match a with
  | ⟨0, _⟩ =>
    show (vecDims N R wf).start (ix1 f) idx 0 + (vecDims N R wf).batchCoord (ix1 f) 0
      + (vecDims N R wf).offCoord (ix1 f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 f) ⟨List.idxOf (0 : Fin 1) (vecDims N R wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl

end Cert.LibGatherVec
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibDegreeNormFacts.lean ====
/-
  Two facts about the degree normalisation of a message list.

  The degree of a node is a count: a sum, over the messages whose destination word names the node, of the real 1 added
  into 0. So it is a natural number as an extended real. Where the count is 0 the comparison "degree > 0" fails and d(n)
  is the zero literal, the real 0; where it is positive the inverse square root of a positive real c is the real
  (√c)⁻¹, which is not negative. Either way d(n) is a non-negative real number.

  A message e that lands on node n has a destination word that, read signed, is n. That is not negative, so the wrap
  that array indexing applies keeps the word; the gather then reads d at the word clamped into [0, N − 1], which is n
  itself because n < N. The source factor is read the same way at the wrapped source word. Hence the weight of e is
  d(its source row) · d(n).
-/
import Idealize.ShloMosaic.Lib.IdealHost
import proofs.«133147_j27951647163110_2_alg».proof.Proof.LibDegreeNorm
import proofs.«133147_j27951647163110_2_alg».proof.Proof.LibSegmentSum
import proofs.«133147_j27951647163110_2_alg».proof.Proof.LibGatherRows
import proofs.«133147_j27951647163110_2_alg».proof.Proof.LibGatherVec
import proofs.«133147_j27951647163110_2_alg».proof.Proof.LibColumn
noncomputable section
namespace Cert.GraphLinear
open Idealize.ShloMosaic Idealize.ShloMosaic.ValueIdx Cert.SegmentSum Cert.KernelIdeal.Hand Cert.LibGatherVec

section Facts
variable {N E : Nat} (hN : 0 < N)
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (h1 : ds.updateWindowDims = []) (h2 : ds.insertedWindowDims = [0]) (h3 : ds.scatterDimsToOperandDims = [0]) (h4 : ds.indexVectorDim = 1)
variable (wf : GatherDims.WF ⟨1, ![N]⟩ ⟨2, ![E, 1]⟩ ⟨1, ![E]⟩ [] [0] [] [0] [] 1 ![1])
variable (dg : GatherDims ⟨1, ![N]⟩ ⟨2, ![E, 1]⟩ ⟨1, ![E]⟩) (hdg : dg = vecDims N E wf)

/-- The zero literal spread over a vector reads the real 0 everywhere. -/
private theorem zeros_apply {M : Nat} (hb : (⟨0, ![]⟩ : Shape).BroadcastsInDim ⟨1, ![M]⟩ ![]) (i : (⟨1, ![M]⟩ : Shape).Idx) :
    broadcastInDim ⟨1, ![M]⟩ ![] hb (constant (F := Ideal) ⟨0, ![]⟩ .f32 0x00000000#32) i = (0 : EReal) := by
  rw [broadcastInDim_scalar_apply]
  exact Ideal.ofBits_zero_f32

/-- The literal 1 spread over a vector reads the real 1 everywhere. -/
private theorem ones_apply {M : Nat} (hb : (⟨0, ![]⟩ : Shape).BroadcastsInDim ⟨1, ![M]⟩ ![]) (i : (⟨1, ![M]⟩ : Shape).Idx) :
    broadcastInDim ⟨1, ![M]⟩ ![] hb (constant (F := Ideal) ⟨0, ![]⟩ .f32 0x3F800000#32) i = (1 : EReal) := by
  rw [broadcastInDim_scalar_apply]
  exact Ideal.ofBits_one_f32

/-- A sum of ones over a finite set is its number of elements. -/
private theorem sum_one_eq_card {ι : Type} (S : Finset ι) : ∑ _e ∈ S, (1 : EReal) = ((S.card : ℝ) : EReal) := by
  have h := Cert.RealEntries.coe_sum S (fun _ => (1 : ℝ))
  rw [Finset.sum_const, nsmul_eq_mul, mul_one] at h
  exact h.symm

include h1 h2 h3 h4 in
/-- The degree of node n is the number of messages whose destination word names it. -/
private theorem degree_apply (dst : IVec ⟨1, ![E]⟩ 32) (n : Fin N) :
    degree hbN hbE hcol ds dst (ix1 n) = (((edgesAt (idxCol hcol dst) n).card : ℝ) : EReal) := by
  show Ideal.hostScatterAdd ds _ (idxCol hcol dst) _ (ix1 n) = _
  rw [scatterAdd_vec_apply ds h1 h2 h3 h4, zeros_apply, zero_add]
  exact (Finset.sum_congr rfl fun e _ => ones_apply hbE (ix1 e)).trans (sum_one_eq_card _)

include h1 h2 h3 h4 in
/-- d(n) is a non-negative real number: the degree is a count, and the inverse square root of a positive real is a
    positive real. -/
theorem dinv_nonneg_real (dst : IVec ⟨1, ![E]⟩ 32) (n : Fin N) :
    ∃ r : ℝ, 0 ≤ r ∧ dinv hbN hbE hcol ds dst (ix1 n) = (r : EReal) := by
  have hd := degree_apply hbN hbE hcol ds h1 h2 h3 h4 dst n
  have hz := zeros_apply hbN (ix1 n)
  show ∃ r : ℝ, 0 ≤ r ∧ Scalar.select (Ideal.cmp .ogt (degree hbN hbE hcol ds dst (ix1 n)) _)
      (Ideal.rsqrt (degree hbN hbE hcol ds dst (ix1 n))) _ = (r : EReal)
  rw [hd, hz]
  generalize (edgesAt (idxCol hcol dst) n).card = c
  rcases Nat.eq_zero_or_pos c with h0 | hpos
  · refine ⟨0, le_rfl, ?_⟩
    subst h0
    have hc : Ideal.cmp .ogt (((0 : ℕ) : ℝ) : EReal) 0 = 0#1 := by simp [Ideal.cmp]
    rw [hc, select_zero]
    rfl
  · refine ⟨(Real.sqrt c)⁻¹, inv_nonneg.2 (Real.sqrt_nonneg _), ?_⟩
    have hlt : (0 : EReal) < ((c : ℝ) : EReal) := EReal.coe_pos.2 (Nat.cast_pos.2 hpos)
    have hc : Ideal.cmp .ogt ((c : ℝ) : EReal) 0 = 1#1 := by simp [Ideal.cmp, hpos]
    rw [hc, select_one, Ideal.rsqrt_coe, if_neg (not_lt.2 (Nat.cast_nonneg c)),
      if_neg (ne_of_gt (Nat.cast_pos.2 hpos))]

/-- A vector laid out as a column reads, at (e, 0), the vector's word e. -/
private theorem idxCol_apply (v : IVec ⟨1, ![E]⟩ 32) (e : Fin E) :
    idxCol hcol v (ix2 e (0 : Fin 1)) = v (ix1 e) :=
  Cert.LibColumn.broadcastInDim_a_a1_apply v hcol e 0

/-- The wrap keeps a word that, read signed, is not negative. -/
private theorem wrapIdx_of_nonneg (nWord : BitVec 32) (v : IVec ⟨1, ![E]⟩ 32) (e : Fin E)
    (h : 0 ≤ (v (ix1 e)).toInt) : wrapIdx hbE nWord v (ix1 e) = v (ix1 e) := by
  show Scalar.select (IntOp.cmpi .slt (v (ix1 e))
      (broadcastInDim ⟨1, ![E]⟩ ![] hbE (constantI ⟨0, ![]⟩ 32 0#32) (ix1 e))) _ _ = _
  rw [broadcastInDim_scalar_apply]
  have hs : (v (ix1 e)).slt 0#32 = false := by
    simp only [BitVec.slt, BitVec.toInt_zero, decide_eq_false_iff_not, not_lt]
    exact h
  have hc : IntOp.cmpi .slt (v (ix1 e)) (constantI ⟨0, ![]⟩ 32 0#32 ix0) = 0#1 := by
    show BitVec.ofBool ((v (ix1 e)).slt 0#32) = 0#1
    rw [hs]
    rfl
  rw [hc, select_zero]

include hdg in
/-- A message that lands on node n weighs d(its source row) · d(n): its destination word, read signed, is n, so it is
    not negative, the wrap keeps it, and the clamp into [0, N − 1] keeps it. `nWord` is the number of nodes as a word. -/
theorem norm_of_lands (nWord : BitVec 32) (src dst : IVec ⟨1, ![E]⟩ 32) (n : Fin N) (e : Fin E)
    (he : e ∈ edgesAt (idxCol hcol dst) n) :
    norm hbN hbE hcol ds dg nWord src dst (ix1 e)
      = dinv hbN hbE hcol ds dst (ix1 (rowOf hN (idxCol hcol (wrapIdx hbE nWord src)) e))
        * dinv hbN hbE hcol ds dst (ix1 n) := by
  subst hdg
  have hword : (dst (ix1 e)).toInt = ((n.val : Nat) : Int) := by
    have h := (mem_edgesAt (idxCol hcol dst) n e).1 he
    rwa [idxCol_apply] at h
  have hrow : rowOf hN (idxCol hcol (wrapIdx hbE nWord dst)) e = n := by
    refine Fin.ext ?_
    show min ((idxCol hcol (wrapIdx hbE nWord dst)) (ix2 e (0 : Fin 1))).toInt.toNat (N - 1) = n.val
    rw [idxCol_apply, wrapIdx_of_nonneg hbE nWord dst e (by rw [hword]; exact Int.natCast_nonneg _), hword,
      Int.toNat_natCast]
    have := n.isLt
    omega
  show Host.gather (vecDims N E wf) _ _ (ix1 e) * Host.gather (vecDims N E wf) _ _ (ix1 e) = _
  rw [gather_vec_apply hN wf, gather_vec_apply hN wf, hrow]

end Facts
end Cert.GraphLinear
end
-- ==== Proof.KernelBridge.lean ====
/-
  The idealized kernel program's result in the whole-weight arrangement.

  The program's result is the network in its split arrangement, with d laid out as a column and each bias as a one-row
  matrix. Every d(n) is a non-negative real (the degree is a count), and a message that lands on node n weighs, in the
  reference's normalisation, d(its source row) · d(n). So the law between the two arrangements applies: the result is
  the network with every collected row carrying its whole weight, the biases read as vectors.
-/
import proofs.«133147_j27951647163110_2_alg».proof.Proof.KernelValue
import proofs.«133147_j27951647163110_2_alg».proof.Proof.LibDegreeNormFacts
import proofs.«133147_j27951647163110_2_alg».proof.Proof.LibKeepdims
import proofs.«133147_j27951647163110_2_alg».proof.ReferenceIdeal
import proofs.«133147_j27951647163110_2_alg».proof.Proof.Gen.ReferenceIdeal
import Idealize.ShloMosaic.Lib.ValueLayout

noncomputable section

namespace Cert.KernelIdeal.Chain

open Idealize.ShloMosaic Idealize.ShloMosaic.ValueIdx Idealize.ShloMosaic.TcCoe Idealize.SL.Sem
open Cert.KernelIdeal Cert.KernelIdeal.Gen Cert.GraphLinear Cert.SegmentSum Cert.KernelIdeal.Hand

variable (m : (ℓ : Loc nD τ sig) → Buf (Elt Ideal) ℓ) (ρ : Dev nD → PrngReg) (c : Dev nD)

/-- The weight of every message, d read through the vector gather the reference uses. -/
abbrev nrmOf (src dst : IVec S1650000 32) : Vect 1650000 :=
  Cert.GraphLinear.norm bcast_S_S50000 bcast_S_S1650000 bcast_S1650000_S1650000x1_0 scatter_S50000_S1650000x1_S1650000_n_0_0_1
    Cert.ReferenceIdeal.gather_S50000_S1650000x1_S1650000_n_0_n_n_0_1_1 50000#32 src dst

theorem dcol_nonneg_real (n : Fin 50000) : ∃ r : ℝ, 0 ≤ r ∧ dcol m c (ix2 n (0 : Fin 1)) = (r : EReal) := by
  obtain ⟨r, hr, h⟩ := dinv_nonneg_real bcast_S_S50000 bcast_S_S1650000 bcast_S1650000_S1650000x1_0
    scatter_S50000_S1650000x1_S1650000_n_0_0_1 rfl rfl rfl rfl (dstW m c) n
  exact ⟨r, hr, (Cert.Lib.Keepdims.shapeCast_a_a1_apply _ _ n (0 : Fin 1)).trans h⟩

theorem nrm_of_lands (n : Fin 50000) (e : Fin 1650000) (he : e ∈ edgesAt (dstCol (dstW m c)) n) :
    nrmOf (srcW m c) (dstW m c) (ix1 e)
      = dcol m c (ix2 (rowOf (N := 50000) (by decide) (srcCol (srcW m c)) e) (0 : Fin 1)) * dcol m c (ix2 n (0 : Fin 1)) := by
  refine (norm_of_lands (N := 50000) (E := 1650000) (by decide) bcast_S_S50000 bcast_S_S1650000 bcast_S1650000_S1650000x1_0
    scatter_S50000_S1650000x1_S1650000_n_0_0_1 _ Cert.ReferenceIdeal.gather_S50000_S1650000x1_S1650000_n_0_n_n_0_1_1 rfl
    50000#32 (srcW m c) (dstW m c) n e he).trans ?_
  rw [show dcol m c = shapeCast S50000x1 (dinvOf (dstW m c)) shapeCasts_S50000_S50000x1 from rfl,
    Cert.Lib.Keepdims.shapeCast_a_a1_apply, Cert.Lib.Keepdims.shapeCast_a_a1_apply]

/-- The result buffer at the last boundary is the whole-weight network of the arguments. -/
theorem result_eq :
    (W12 m ρ c (Proc.devRef .tc main_v45) : Mat 50000 64)
      = netWhole (N := 50000) (E := 1650000) (by decide) (dstCol (dstW m c)) (srcCol (srcW m c)) (nrmOf (srcW m c) (dstW m c))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [W12_v45, out_eq_netSplit]
  exact netSplit_eq_netWhole (N := 50000) (E := 1650000) (by decide) (dstCol (dstW m c)) (srcCol (srcW m c)) (dcol m c)
    (nrmOf (srcW m c) (dstW m c)) (dcol_nonneg_real m c) (nrm_of_lands m c) _ _ _ _ _ (ber m c) (b1r m c) (b2r m c) (bor m c)
    (m ((c : Thread nD τ).loc main_arg3)) (m ((c : Thread nD τ).loc main_arg5)) (m ((c : Thread nD τ).loc main_arg7))
    (m ((c : Thread nD τ).loc main_arg9))
    (fun q => shapeCast_a_1a_apply _ _ (0 : Fin 1) q) (fun q => shapeCast_a_1a_apply _ _ (0 : Fin 1) q)
    (fun q => shapeCast_a_1a_apply _ _ (0 : Fin 1) q) (fun q => shapeCast_a_1a_apply _ _ (0 : Fin 1) q)

end Cert.KernelIdeal.Chain

end
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibAggregate.lean ====
/-
  A weighted neighbourhood sum read at one entry.

  Messages e = 0 … E − 1 each carry a source row (an index into a table of N rows and C columns, read signed and clamped
  as a row gather reads it), a destination id and a weight. The aggregate gathers each message's source row, scales it by
  the message's weight (the weight vector laid out as a column and spread across the C columns) and adds it into its
  destination's row of an operand, as a segment sum does. At the ideal (extended-real) values its entry at row n and
  column k is therefore

      x₀(n, k) + ∑ over the messages e with destination n of  T(source e, k) · weight e,

  one exact finite sum: the gather keeps columns, the weight does not depend on the column, and the segment sum adds the
  updates of column k that land on row n. No finiteness is needed. Nothing here depends on a program.
-/
import Idealize.ShloMosaic.PureOps
import Idealize.ShloMosaic.PureOps.Ideal
import Idealize.ShloMosaic.Lib.ValueIdx
import Idealize.ShloMosaic.Lib.Pipeline.Value
import proofs.«133147_j27951647163110_2_alg».proof.Proof.LibSegmentSum
import proofs.«133147_j27951647163110_2_alg».proof.Proof.LibGatherRows
import proofs.«133147_j27951647163110_2_alg».proof.Proof.LibColumn
import proofs.«133147_j27951647163110_2_alg».proof.Proof.LibHostColumn

noncomputable section

namespace Cert.LibAggregate

open Idealize.ShloMosaic Idealize.ShloMosaic.ValueIdx Cert.SegmentSum Cert.KernelIdeal.Hand

/-- The weighted neighbourhood sum at (n, k): the operand's entry plus the sum, over the messages whose destination is n,
    of the table's entry at (the message's source row, k) times the message's weight. The gather's dimension numbers are
    any record equal to a row gather's (the equation is `rfl` at a literal record). -/
theorem aggregate_apply {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb1 : (⟨1, ![E]⟩ : Shape).BroadcastsInDim ⟨2, ![E, 1]⟩ ![0])
    (hb2 : (⟨2, ![E, 1]⟩ : Shape).BroadcastsInDim ⟨2, ![E, C]⟩ ![0, 1])
    (x0 : FVec Ideal ⟨2, ![N, C]⟩ .f32) (ci : IVec ⟨2, ![E, 1]⟩ w) (T : FVec Ideal ⟨2, ![N, C]⟩ .f32)
    (gi : IVec ⟨2, ![E, 1]⟩ w') (nrm : FVec Ideal ⟨1, ![E]⟩ .f32) (n : Fin N) (k : Fin C) :
    Host.scatterAdd ds x0 ci
        (mulf (Host.gather dg T gi)
          (broadcastInDim ⟨2, ![E, C]⟩ ![0, 1] hb2 (broadcastInDim ⟨2, ![E, 1]⟩ ![0] hb1 nrm))) (ix2 n k)
      = x0 (ix2 n k) + ∑ e ∈ edgesAt ci n, T (ix2 (rowOf hN gi e) k) * nrm (ix1 e) := by
  subst hdg
  show Ideal.hostScatterAdd ds x0 ci
      (fun j => Host.gather (rowDims N E C wf) T gi j
        * broadcastInDim ⟨2, ![E, C]⟩ ![0, 1] hb2 (broadcastInDim ⟨2, ![E, 1]⟩ ![0] hb1 nrm) j) (ix2 n k) = _
  rw [scatterAdd_rows_apply ds h1 h2 h3 h4]
  refine congrArg (x0 (ix2 n k) + ·) (Finset.sum_congr rfl fun e _ => ?_)
  show Host.gather (rowDims N E C wf) T gi (ix2 e k)
      * broadcastInDim ⟨2, ![E, C]⟩ ![0, 1] hb2 (broadcastInDim ⟨2, ![E, 1]⟩ ![0] hb1 nrm) (ix2 e k) = _
  rw [gather_rows_apply hN wf T gi e k, Cert.LibHostColumn.broadcastInDim_a1_ab_apply,
    Cert.LibColumn.broadcastInDim_a_a1_apply]

end Cert.LibAggregate

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.RefValue.lean ====
/-
  The reference program's value.

  The reference is a straight line of 94 host operations. Its result buffer is read here as ONE named function of the
  argument arrays: the linear graph network `netWhole` of LibGraphLayers.lean over the index columns and the normalisation of
  LibDegreeNorm.lean, taken at the source and destination words the program builds from its edge list (each row of the list
  followed by 0 … 49999, every node's message to itself).

  The line is cut in two. The first seven operations build the two word vectors; each concatenation is read from
  contents in which its two operands are already named. The remaining operations are read in one pass from arbitrary
  contents `W` as a composition of the operations' functions over `W`'s words and arguments, and that composition is
  the network stage by stage: an affine map read at an entry is the exact sum plus the bias entry, and a layer read at an
  entry is the weighted neighbourhood sum (the segment sum of the gathered, weighted rows) plus the bias, maximum with
  zero. The degrees, d and the normalisation are LibDegreeNorm.lean's definitions word for word.
-/
import proofs.«133147_j27951647163110_2_alg».proof.Proof.RefRun
import proofs.«133147_j27951647163110_2_alg».proof.Proof.LibGraphLayers
import proofs.«133147_j27951647163110_2_alg».proof.Proof.LibDegreeNorm
import proofs.«133147_j27951647163110_2_alg».proof.Proof.LibAggregate
import proofs.«133147_j27951647163110_2_alg».proof.Proof.LibAffineAt
import proofs.«133147_j27951647163110_2_alg».proof.Proof.LibRowBias
import proofs.«133147_j27951647163110_2_alg».proof.Proof.LibTypedRef
import Idealize.ShloMosaic.Lib.Pipeline.Frame
noncomputable section
namespace Cert.ReferenceIdeal.RefValue
open Idealize.ShloMosaic Idealize.ShloMosaic.ValueIdx Idealize.ShloMosaic.TcCoe Idealize.SL.Sem Idealize.ShloMosaic.StableHlo
open Cert.ReferenceIdeal Cert.ReferenceIdeal.Gen Cert.GraphLinear

/-- The source words: row 0 of the edge list followed by 0 … 49999 (every node's message to itself). -/
def srcWords (ei : IVec S2x1600000 32) : IVec S1650000 32 :=
  concatenate S1650000 0 [⟨S1600000, shapeCast _ (extractStridedSlice S1x1600000 ![0, 0] ei slices_S2x1600000_S1x1600000_0_0) shapeCasts_S1x1600000_S1600000⟩, ⟨S50000, iotaInDim S50000 32 0⟩] concatenates_S1600000_S50000_S1650000_d0
/-- The destination words: row 1 of the edge list followed by 0 … 49999. -/
def dstWords (ei : IVec S2x1600000 32) : IVec S1650000 32 :=
  concatenate S1650000 0 [⟨S1600000, shapeCast _ (extractStridedSlice S1x1600000 ![1, 0] ei slices_S2x1600000_S1x1600000_1_0) shapeCasts_S1x1600000_S1600000⟩, ⟨S50000, iotaInDim S50000 32 0⟩] concatenates_S1600000_S50000_S1650000_d0

/-! ## The stages over arbitrary arrays -/

/-- The f32 zero broadcast to any shape reads 0 everywhere. -/
theorem zeros_apply {t : Shape} (dims : Fin (⟨0, ![]⟩ : Shape).rank → Fin t.rank)
    (h : (⟨0, ![]⟩ : Shape).BroadcastsInDim t dims) (i : t.Idx) :
    broadcastInDim t dims h (constant (F := Ideal) ⟨0, ![]⟩ .f32 0x00000000#32) i = (0 : EReal) :=
  Ideal.ofBits_zero_f32

/-- Rows times weights plus a bias vector laid along every row, as a host program spells it, is `affineVec`. -/
theorem host_affine_eq {M K N : Nat} (d : DotDims ⟨2, ![M, K]⟩ ⟨2, ![K, N]⟩ ⟨2, ![M, N]⟩) (hd : d = DotDims.plain M K N)
    (hd1 : (⟨1, ![N]⟩ : Shape).BroadcastsInDim ⟨2, ![1, N]⟩ ![1])
    (hd2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) :
    (addf (Host.dotGeneral d none x w)
        (broadcastInDim ⟨2, ![M, N]⟩ ![0, 1] hd2 (broadcastInDim ⟨2, ![1, N]⟩ ![1] hd1 b)) : Mat M N)
      = affineVec x w b := by
  funext i
  obtain ⟨r, q, rfl⟩ : ∃ (r : Fin M) (q : Fin N), i = ix2 r q := ⟨i 0, i 1, eq_ix2 i⟩
  refine (addf_apply _ _ _).trans ?_
  exact congrArg₂ (· + ·) (Cert.KernelIdeal.Hand.dotGeneral_plain_apply' d hd none x w (ix2 r q))
    (Cert.LibRowBias.row_broadcastInDim_apply b hd1 hd2 r q)

/-- One layer as a host program spells it — the rows times the weights, gathered along the messages' sources, each
    scaled by its message's weight, added into zeros at the messages' destinations, plus the bias, maximum with zero —
    is `layerWhole`. -/
theorem host_layer_eq {N E C K : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = Cert.KernelIdeal.Hand.rowDims N E C wf)
    (hb1 : (⟨1, ![E]⟩ : Shape).BroadcastsInDim ⟨2, ![E, 1]⟩ ![0])
    (hb2 : (⟨2, ![E, 1]⟩ : Shape).BroadcastsInDim ⟨2, ![E, C]⟩ ![0, 1])
    (d : DotDims ⟨2, ![N, K]⟩ ⟨2, ![K, C]⟩ ⟨2, ![N, C]⟩) (hd : d = DotDims.plain N K C)
    (hz : (⟨0, ![]⟩ : Shape).BroadcastsInDim ⟨2, ![N, C]⟩ ![])
    (hd1 : (⟨1, ![C]⟩ : Shape).BroadcastsInDim ⟨2, ![1, C]⟩ ![1])
    (hd2 : (⟨2, ![1, C]⟩ : Shape).BroadcastsInDim ⟨2, ![N, C]⟩ ![0, 1])
    (dcol scol : IVec ⟨2, ![E, 1]⟩ 32) (nrm : FVec Ideal ⟨1, ![E]⟩ .f32)
    (h : FVec Ideal ⟨2, ![N, K]⟩ .f32) (wt : FVec Ideal ⟨2, ![K, C]⟩ .f32) (b : FVec Ideal ⟨1, ![C]⟩ .f32) :
    (maximumf
        (addf
          (Host.scatterAdd ds (broadcastInDim ⟨2, ![N, C]⟩ ![] hz (constant ⟨0, ![]⟩ .f32 0x00000000#32)) dcol
            (mulf (Host.gather dg (Host.dotGeneral d none h wt) scol)
              (broadcastInDim ⟨2, ![E, C]⟩ ![0, 1] hb2 (broadcastInDim ⟨2, ![E, 1]⟩ ![0] hb1 nrm))))
          (broadcastInDim ⟨2, ![N, C]⟩ ![0, 1] hd2 (broadcastInDim ⟨2, ![1, C]⟩ ![1] hd1 b)))
        (broadcastInDim ⟨2, ![N, C]⟩ ![] hz (constant ⟨0, ![]⟩ .f32 0x00000000#32)) : Mat N C)
      = layerWhole hN dcol scol nrm h wt b := by
  funext i
  obtain ⟨n, k, rfl⟩ : ∃ (n : Fin N) (k : Fin C), i = ix2 n k := ⟨i 0, i 1, eq_ix2 i⟩
  refine (maximumf_apply _ _ _).trans ?_
  rw [addf_apply, Cert.LibAggregate.aggregate_apply hN ds h1 h2 h3 h4 wf dg hdg hb1 hb2,
    Cert.LibRowBias.row_broadcastInDim_apply b hd1 hd2 n k, zeros_apply, zero_add]
  refine congrArg (fun z => max (z + b (ix1 k)) (0 : EReal)) (Finset.sum_congr rfl fun e _ => ?_)
  rw [Cert.KernelIdeal.Hand.dotGeneral_plain_apply' d hd none h wt]
  rfl

section Lists
variable {F : FTy → Type} [FloatOps F]
/-- The first three operations: the node numbers 0 … 49999, and row 0 of the edge list as a vector. -/
abbrev sA : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- The source words put together, row 1 of the edge list as a vector, the destination words put together. -/
abbrev sB : List (HloOp τ sig (Elt F)) :=
  [ binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- The operations before the destination words are put together. -/
abbrev sH6 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- The operation that puts the destination words together. -/
abbrev sL6 : List (HloOp τ sig (Elt F)) :=
  [ binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- The operations that build the source and destination words. -/
abbrev sH : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- The rest — the degrees, the normalisation, the encoder, the two layers and the decoder —, the operations of the called functions written over the buffers themselves (a typed reference to a buffer of this program crosses by the identity). -/
abbrev sR : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)),
    binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    binary main_v33 main_arg4 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v35 (broadcastInDim S1650000 ![] bcast_S_S1650000 : (⟨S_, .i32⟩ : BufTy).Contents (Elt F) → (⟨S1650000, .i32⟩ : BufTy).Contents (Elt F)),
    binary main_v3 main_v35 main_v36 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v37 (broadcastInDim S1650000 ![] bcast_S_S1650000 : (⟨S_, .i32⟩ : BufTy).Contents (Elt F) → (⟨S1650000, .i32⟩ : BufTy).Contents (Elt F)),
    binary main_v3 main_v37 main_v38 (addi : (⟨S1650000, .i32⟩ : BufTy).Contents (Elt F) → (⟨S1650000, .i32⟩ : BufTy).Contents (Elt F) → (⟨S1650000, .i32⟩ : BufTy).Contents (Elt F)),
    ternary main_v36 main_v38 main_v3 main_v39 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v39 main_v40 (broadcastInDim S1650000x1 ![0] bcast_S1650000_S1650000x1_0 : (⟨S1650000, .i32⟩ : BufTy).Contents (Elt F) → (⟨S1650000x1, .i32⟩ : BufTy).Contents (Elt F)),
    binary main_v34 main_v40 main_v41 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v42 (broadcastInDim S1650000x1 ![0] bcast_S1650000_S1650000x1_0 : (⟨S1650000, .f32⟩ : BufTy).Contents (Elt F) → (⟨S1650000x1, .f32⟩ : BufTy).Contents (Elt F)),
    unary main_v42 main_v43 (broadcastInDim S1650000x128 ![0, 1] bcast_S1650000x1_S1650000x128_0_1 : (⟨S1650000x1, .f32⟩ : BufTy).Contents (Elt F) → (⟨S1650000x128, .f32⟩ : BufTy).Contents (Elt F)),
    binary main_v41 main_v43 main_v44 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v45 (broadcastInDim S50000x128 ![] bcast_S_S50000x128 : (⟨S_, .f32⟩ : BufTy).Contents (Elt F) → (⟨S50000x128, .f32⟩ : BufTy).Contents (Elt F)),
    unary main_v6 main_v46 (broadcastInDim S1650000x1 ![0] bcast_S1650000_S1650000x1_0 : (⟨S1650000, .i32⟩ : BufTy).Contents (Elt F) → (⟨S1650000x1, .i32⟩ : BufTy).Contents (Elt F)),
    ternary main_v45 main_v46 main_v44 main_v47 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg5 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v50 main_call1_v0 main_v51 (maximumf : (⟨S50000x128, .f32⟩ : BufTy).Contents (Elt F) → (⟨S50000x128, .f32⟩ : BufTy).Contents (Elt F) → (⟨S50000x128, .f32⟩ : BufTy).Contents (Elt F)),
    binary main_v51 main_arg6 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v53 (broadcastInDim S1650000 ![] bcast_S_S1650000 : (⟨S_, .i32⟩ : BufTy).Contents (Elt F) → (⟨S1650000, .i32⟩ : BufTy).Contents (Elt F)),
    binary main_v3 main_v53 main_v54 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v55 (broadcastInDim S1650000 ![] bcast_S_S1650000 : (⟨S_, .i32⟩ : BufTy).Contents (Elt F) → (⟨S1650000, .i32⟩ : BufTy).Contents (Elt F)),
    binary main_v3 main_v55 main_v56 (addi : (⟨S1650000, .i32⟩ : BufTy).Contents (Elt F) → (⟨S1650000, .i32⟩ : BufTy).Contents (Elt F) → (⟨S1650000, .i32⟩ : BufTy).Contents (Elt F)),
    ternary main_v54 main_v56 main_v3 main_v57 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v57 main_v58 (broadcastInDim S1650000x1 ![0] bcast_S1650000_S1650000x1_0 : (⟨S1650000, .i32⟩ : BufTy).Contents (Elt F) → (⟨S1650000x1, .i32⟩ : BufTy).Contents (Elt F)),
    binary main_v52 main_v58 main_v59 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v60 (broadcastInDim S1650000x1 ![0] bcast_S1650000_S1650000x1_0 : (⟨S1650000, .f32⟩ : BufTy).Contents (Elt F) → (⟨S1650000x1, .f32⟩ : BufTy).Contents (Elt F)),
    unary main_v60 main_v61 (broadcastInDim S1650000x128 ![0, 1] bcast_S1650000x1_S1650000x128_0_1 : (⟨S1650000x1, .f32⟩ : BufTy).Contents (Elt F) → (⟨S1650000x128, .f32⟩ : BufTy).Contents (Elt F)),
    binary main_v59 main_v61 main_v62 (mulf : (⟨S1650000x128, .f32⟩ : BufTy).Contents (Elt F) → (⟨S1650000x128, .f32⟩ : BufTy).Contents (Elt F) → (⟨S1650000x128, .f32⟩ : BufTy).Contents (Elt F)),
    nullary main_cst_11 (constant S_ .f32 0x00000000#32),
    unary main_cst_11 main_v63 (broadcastInDim S50000x128 ![] bcast_S_S50000x128 : (⟨S_, .f32⟩ : BufTy).Contents (Elt F) → (⟨S50000x128, .f32⟩ : BufTy).Contents (Elt F)),
    unary main_v6 main_v64 (broadcastInDim S1650000x1 ![0] bcast_S1650000_S1650000x1_0 : (⟨S1650000, .i32⟩ : BufTy).Contents (Elt F) → (⟨S1650000x1, .i32⟩ : BufTy).Contents (Elt F)),
    ternary main_v63 main_v64 main_v62 main_v65 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg7 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    nullary main_call2_cst (constant S_ .f32 0x00000000#32),
    unary main_call2_cst main_call2_v0 (broadcastInDim S50000x128 ![] bcast_S_S50000x128 : (⟨S_, .f32⟩ : BufTy).Contents (Elt F) → (⟨S50000x128, .f32⟩ : BufTy).Contents (Elt F)),
    binary main_v68 main_call2_v0 main_v69 (maximumf : (⟨S50000x128, .f32⟩ : BufTy).Contents (Elt F) → (⟨S50000x128, .f32⟩ : BufTy).Contents (Elt F) → (⟨S50000x128, .f32⟩ : BufTy).Contents (Elt F)),
    binary main_v69 main_arg8 main_v70 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v71 (broadcastInDim S1x64 ![1] bcast_S64_S1x64_1 : (⟨S64, .f32⟩ : BufTy).Contents (Elt F) → (⟨S1x64, .f32⟩ : BufTy).Contents (Elt F)),
    unary main_v71 main_v72 (broadcastInDim S50000x64 ![0, 1] bcast_S1x64_S50000x64_0_1 : (⟨S1x64, .f32⟩ : BufTy).Contents (Elt F) → (⟨S50000x64, .f32⟩ : BufTy).Contents (Elt F)),
    binary main_v70 main_v72 main_v73 (addf : (⟨S50000x64, .f32⟩ : BufTy).Contents (Elt F) → (⟨S50000x64, .f32⟩ : BufTy).Contents (Elt F) → (⟨S50000x64, .f32⟩ : BufTy).Contents (Elt F)) ]

end Lists

/-! ## The network, read from any contents that hold the source and destination words -/

set_option maxRecDepth 8192 in
set_option maxHeartbeats 4000000 in
/-- From any buffer contents `W`, the operations after the words are built leave in the result buffer the network of the
    arguments in `W`, over the destination column, the wrapped source column and the normalisation of the words in `W`. -/
theorem tail_eq (W : Valuation τ sig (Elt Ideal)) :
    (StableHlo.after (sR (F := Ideal)) W (Proc.devRef .tc main_v73) : Mat 50000 64)
      = netWhole (N := 50000) (E := 1650000) (by decide)
          (idxCol bcast_S1650000_S1650000x1_0 (W (Proc.devRef .tc main_v6)))
          (idxCol bcast_S1650000_S1650000x1_0 (wrapIdx bcast_S_S1650000 50000#32 (W (Proc.devRef .tc main_v3))))
          (Cert.GraphLinear.norm bcast_S_S50000 bcast_S_S1650000 bcast_S1650000_S1650000x1_0 scatter_S50000_S1650000x1_S1650000_n_0_0_1
            gather_S50000_S1650000x1_S1650000_n_0_n_n_0_1_1 50000#32
            (W (Proc.devRef .tc main_v3)) (W (Proc.devRef .tc main_v6)))
          (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  simp only [id_eq]
  unfold netWhole
  rw [← host_affine_eq dot_S50000x128_S128x64_S50000x64_1_0_0_1_n_n rfl bcast_S64_S1x64_1 bcast_S1x64_S50000x64_0_1,
    ← host_layer_eq (by decide) scatter_S50000x128_S1650000x1_S1650000x128_1_0_0_1 rfl rfl rfl rfl gather_S50000x128_S1650000x1_S1650000x128_1_0_n_n_0_1_1128_wf gather_S50000x128_S1650000x1_S1650000x128_1_0_n_n_0_1_1128 rfl bcast_S1650000_S1650000x1_0 bcast_S1650000x1_S1650000x128_0_1 dot_S50000x128_S128x128_S50000x128_1_0_0_1_n_n rfl bcast_S_S50000x128 bcast_S128_S1x128_1 bcast_S1x128_S50000x128_0_1,
    ← host_layer_eq (by decide) scatter_S50000x128_S1650000x1_S1650000x128_1_0_0_1 rfl rfl rfl rfl gather_S50000x128_S1650000x1_S1650000x128_1_0_n_n_0_1_1128_wf gather_S50000x128_S1650000x1_S1650000x128_1_0_n_n_0_1_1128 rfl bcast_S1650000_S1650000x1_0 bcast_S1650000x1_S1650000x128_0_1 dot_S50000x128_S128x128_S50000x128_1_0_0_1_n_n rfl bcast_S_S50000x128 bcast_S128_S1x128_1 bcast_S1x128_S50000x128_0_1,
    ← host_affine_eq dot_S50000x128_S128x128_S50000x128_1_0_0_1_n_n rfl bcast_S128_S1x128_1 bcast_S1x128_S50000x128_0_1]
  unfold Cert.GraphLinear.norm Cert.GraphLinear.dinv Cert.GraphLinear.degree Cert.GraphLinear.idxCol Cert.GraphLinear.wrapIdx
  rfl

/-! ## The source and destination words -/

set_option maxRecDepth 8192 in
/-- After the first three operations the buffer of row 0 holds row 0 of the edge list as a vector. -/
theorem sA_v2 (V : Valuation τ sig (Elt Ideal)) :
    StableHlo.after (sA (F := Ideal)) V (Proc.devRef .tc main_v2)
      = shapeCast _ (extractStridedSlice S1x1600000 ![0, 0] (V (Proc.devRef .tc main_arg1)) slices_S2x1600000_S1x1600000_0_0) shapeCasts_S1x1600000_S1600000 := by
  after_results_simp
  rfl

set_option maxRecDepth 8192 in
/-- … and the buffer of the node numbers holds 0 … 49999. -/
theorem sA_v0 (V : Valuation τ sig (Elt Ideal)) :
    StableHlo.after (sA (F := Ideal)) V (Proc.devRef .tc main_v0) = iotaInDim S50000 32 0 := by
  after_results_simp

set_option maxRecDepth 8192 in
/-- The source words after the operations that build the words. -/
theorem head_v3 (V : Valuation τ sig (Elt Ideal)) :
    StableHlo.after (sH (F := Ideal)) V (Proc.devRef .tc main_v3) = srcWords (V (Proc.devRef .tc main_arg1)) := by
  have hs : (sH (F := Ideal)) = sA ++ sB := rfl
  rw [hs, StableHlo.after_append]
  have e2 := sA_v2 V
  have e0 := sA_v0 V
  generalize StableHlo.after (sA (F := Ideal)) V = X at e2 e0 ⊢
  after_results_simp
  rw [e2, e0]
  rfl

set_option maxRecDepth 8192 in
/-- Before the destination words are put together the buffer of row 1 holds row 1 of the edge list as a vector. -/
theorem sH6_v5 (V : Valuation τ sig (Elt Ideal)) :
    StableHlo.after (sH6 (F := Ideal)) V (Proc.devRef .tc main_v5)
      = shapeCast _ (extractStridedSlice S1x1600000 ![1, 0] (V (Proc.devRef .tc main_arg1)) slices_S2x1600000_S1x1600000_1_0) shapeCasts_S1x1600000_S1600000 := by
  after_results_simp
  rfl

set_option maxRecDepth 8192 in
/-- … and the buffer of the node numbers still holds 0 … 49999. -/
theorem sH6_v0 (V : Valuation τ sig (Elt Ideal)) :
    StableHlo.after (sH6 (F := Ideal)) V (Proc.devRef .tc main_v0) = iotaInDim S50000 32 0 := by
  after_results_simp

set_option maxRecDepth 8192 in
/-- The destination words after the operations that build the words. -/
theorem head_v6 (V : Valuation τ sig (Elt Ideal)) :
    StableHlo.after (sH (F := Ideal)) V (Proc.devRef .tc main_v6) = dstWords (V (Proc.devRef .tc main_arg1)) := by
  have hs : (sH (F := Ideal)) = sH6 ++ sL6 := rfl
  rw [hs, StableHlo.after_append]
  have e5 := sH6_v5 V
  have e0 := sH6_v0 V
  generalize StableHlo.after (sH6 (F := Ideal)) V = X at e5 e0 ⊢
  after_results_simp
  rw [e5, e0]
  rfl

set_option maxRecDepth 8192 in
theorem head_arg0 (V : Valuation τ sig (Elt Ideal)) :
    StableHlo.after (sH (F := Ideal)) V (Proc.devRef .tc main_arg0) = V (Proc.devRef .tc main_arg0) := by
  after_results_simp

set_option maxRecDepth 8192 in
theorem head_arg2 (V : Valuation τ sig (Elt Ideal)) :
    StableHlo.after (sH (F := Ideal)) V (Proc.devRef .tc main_arg2) = V (Proc.devRef .tc main_arg2) := by
  after_results_simp

set_option maxRecDepth 8192 in
theorem head_arg3 (V : Valuation τ sig (Elt Ideal)) :
    StableHlo.after (sH (F := Ideal)) V (Proc.devRef .tc main_arg3) = V (Proc.devRef .tc main_arg3) := by
  after_results_simp

set_option maxRecDepth 8192 in
theorem head_arg4 (V : Valuation τ sig (Elt Ideal)) :
    StableHlo.after (sH (F := Ideal)) V (Proc.devRef .tc main_arg4) = V (Proc.devRef .tc main_arg4) := by
  after_results_simp

set_option maxRecDepth 8192 in
theorem head_arg5 (V : Valuation τ sig (Elt Ideal)) :
    StableHlo.after (sH (F := Ideal)) V (Proc.devRef .tc main_arg5) = V (Proc.devRef .tc main_arg5) := by
  after_results_simp

set_option maxRecDepth 8192 in
theorem head_arg6 (V : Valuation τ sig (Elt Ideal)) :
    StableHlo.after (sH (F := Ideal)) V (Proc.devRef .tc main_arg6) = V (Proc.devRef .tc main_arg6) := by
  after_results_simp

set_option maxRecDepth 8192 in
theorem head_arg7 (V : Valuation τ sig (Elt Ideal)) :
    StableHlo.after (sH (F := Ideal)) V (Proc.devRef .tc main_arg7) = V (Proc.devRef .tc main_arg7) := by
  after_results_simp

set_option maxRecDepth 8192 in
theorem head_arg8 (V : Valuation τ sig (Elt Ideal)) :
    StableHlo.after (sH (F := Ideal)) V (Proc.devRef .tc main_arg8) = V (Proc.devRef .tc main_arg8) := by
  after_results_simp

set_option maxRecDepth 8192 in
theorem head_arg9 (V : Valuation τ sig (Elt Ideal)) :
    StableHlo.after (sH (F := Ideal)) V (Proc.devRef .tc main_arg9) = V (Proc.devRef .tc main_arg9) := by
  after_results_simp

/-! ## The whole program -/

set_option maxRecDepth 8192 in
/-- The reference's result buffer holds the network of its arguments, over the index columns and the normalisation of
    the source and destination words of its edge list. -/
theorem result_eq (m : (ℓ : Loc nD τ sig) → Buf (Elt Ideal) ℓ) (c : Dev nD) :
    (StableHlo.after (Cert.ReferenceIdeal.ValueP.ops (F := Ideal)) (launchContents m c) (Proc.devRef .tc main_v73) : Mat 50000 64)
      = netWhole (N := 50000) (E := 1650000) (by decide)
          (idxCol bcast_S1650000_S1650000x1_0 (dstWords (m ((c.tc : Thread nD τ).loc main_arg1))))
          (idxCol bcast_S1650000_S1650000x1_0 (wrapIdx bcast_S_S1650000 50000#32 (srcWords (m ((c.tc : Thread nD τ).loc main_arg1)))))
          (Cert.GraphLinear.norm bcast_S_S50000 bcast_S_S1650000 bcast_S1650000_S1650000x1_0 scatter_S50000_S1650000x1_S1650000_n_0_0_1
            gather_S50000_S1650000x1_S1650000_n_0_n_n_0_1_1 50000#32
            (srcWords (m ((c.tc : Thread nD τ).loc main_arg1))) (dstWords (m ((c.tc : Thread nD τ).loc main_arg1))))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) := by
  have hs : Cert.ReferenceIdeal.ValueP.ops (F := Ideal) = sH ++ sR := rfl
  rw [hs, StableHlo.after_append, tail_eq, head_v3, head_v6, head_arg0, head_arg2, head_arg3, head_arg4, head_arg5,
    head_arg6, head_arg7, head_arg8, head_arg9]

end Cert.ReferenceIdeal.RefValue
end
-- ==== Proof.lean ====
/-
  A linear graph network — an affine encoder, two graph-convolution layers with a maximum with zero, an affine decoder —
  over 50,000 nodes and 1,650,000 messages (1,600,000 edges and every node's message to itself), computed by six tiled
  kernels with host gathers and segment sums between them, against the plain formulation.

  Both programs build the same source and destination words, the same degrees and the same d(n) = degree(n)^(-1/2)
  (0 where the degree is 0). The reference scales every gathered row of h·W by d(source)·d(destination) and sums the rows
  landing on each node. The kernel program multiplies d(row) into h·W inside its matrix-product kernel, gathers and sums
  the rows unweighted, and multiplies d(node) into the sum inside its bias-and-maximum kernel. At the ideal values the two
  agree entry by entry: the factor d(destination) is the same non-negative real for every message landing on a node, a
  non-negative real factor distributes over a finite sum of extended reals, and multiplication is associative; a matrix
  product whose operands are first recast to a shorter float format is the plain product, tile by tile. No input needs to
  be finite for this: the precondition is not used.

  The kernel program's run is the generated frame's run of @main's twelve segments with the result buffer read off the
  final state; its value is followed region by region (each region's output array is one whole-array function of its
  input arrays) and stretch by stretch. The reference's run is its list of host operations read back. The ideal pass
  rewrote nothing, so the kernel program's idealization is its own text.
-/
import proofs.«133147_j27951647163110_2_alg».proof.Defs
import proofs.«133147_j27951647163110_2_alg».proof.Proof.Gen.Kernel
import proofs.«133147_j27951647163110_2_alg».proof.Proof.Gen.Kernel.Frame
import proofs.«133147_j27951647163110_2_alg».proof.Proof.Gen.KernelIdeal
import proofs.«133147_j27951647163110_2_alg».proof.Proof.Gen.KernelIdeal.Frame
import proofs.«133147_j27951647163110_2_alg».proof.Proof.Gen.ReferenceIdeal
import proofs.«133147_j27951647163110_2_alg».proof.Proof.Gen.Pre_finite_inputs
import proofs.«133147_j27951647163110_2_alg».proof.Proof.KernelRun
import proofs.«133147_j27951647163110_2_alg».proof.Proof.KernelBridge
import proofs.«133147_j27951647163110_2_alg».proof.Proof.RefRun
import proofs.«133147_j27951647163110_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the whole-weight network of the (agreeing) arguments in their result buffers. -/
theorem algebraic : Cert.algebraic_KernelIdeal_ReferenceIdeal := by
  intro m ρ m' ρ' _ hagree
  refine ⟨fun c => Cert.KernelIdeal.Gen.W12 m ρ c (Proc.devRef .tc Cert.KernelIdeal.main_v45), ?_, ?_⟩
  · exact Cert.KernelIdeal.KRun.run_named (F := Ideal) m ρ
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    refine ((Cert.ReferenceIdeal.RefValue.result_eq m' c).trans ?_).trans (Cert.KernelIdeal.Chain.result_eq m ρ c).symm
    rw [h0, h1, h2, h3, h4, h5, h6, h7, h8, h9]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
